-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256 : Shape := ⟨1, ![256]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg16
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x1 .f32) (main_arg17 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S256 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S256 : Shape := ⟨1, ![256]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S256x50000 : Shape := ⟨2, ![256, 50000]⟩
abbrev S5120x128 : Shape := ⟨2, ![5120, 128]⟩
abbrev S256x5120 : Shape := ⟨2, ![256, 5120]⟩
abbrev S1x5120 : Shape := ⟨2, ![1, 5120]⟩
abbrev S_ : Shape := ⟨0, ![]⟩
abbrev S256x1 : Shape := ⟨2, ![256, 1]⟩
abbrev S256x128 : Shape := ⟨2, ![256, 128]⟩

abbrev nBuf : Space → Nat
  | .hbm => 66
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S256, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S128x128, .bf16⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S1x128, .f32⟩
  | .hbm, ⟨23, _⟩ => ⟨S1x128, .bf16⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x1, .f32⟩
  | .hbm, ⟨29, _⟩ => ⟨S256x50000, .f32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S256x128, .f32⟩
  | .hbm, ⟨39, _⟩ => ⟨S256x128, .f32⟩
  | .hbm, ⟨40, _⟩ => ⟨S1x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .i1⟩
  | .hbm, ⟨46, _⟩ => ⟨S_, .f32⟩
  | .hbm, ⟨47, _⟩ => ⟨S256x128, .f32⟩
  | .hbm, ⟨48, _⟩ => ⟨S256x128, .f32⟩
  | .hbm, ⟨49, _⟩ => ⟨S256x128, .f32⟩
  | .hbm, ⟨50, _⟩ => ⟨S256x128, .f32⟩
  | .hbm, ⟨51, _⟩ => ⟨S1x128, .f32⟩
  | .hbm, ⟨52, _⟩ => ⟨S256x128, .f32⟩
  | .hbm, ⟨53, _⟩ => ⟨S256x128, .f32⟩
  | .hbm, ⟨54, _⟩ => ⟨S_, .f32⟩
  | .hbm, ⟨55, _⟩ => ⟨S256x128, .f32⟩
  | .hbm, ⟨56, _⟩ => ⟨S256x128, .i1⟩
  | .hbm, ⟨57, _⟩ => ⟨S_, .f32⟩
  | .hbm, ⟨58, _⟩ => ⟨S256x128, .f32⟩
  | .hbm, ⟨59, _⟩ => ⟨S256x128, .f32⟩
  | .hbm, ⟨60, _⟩ => ⟨S256x128, .f32⟩
  | .hbm, ⟨61, _⟩ => ⟨S256x1, .f32⟩
  | .hbm, ⟨62, _⟩ => ⟨S1x1, .f32⟩
  | .hbm, ⟨63, _⟩ => ⟨S256x1, .f32⟩
  | .hbm, ⟨64, _⟩ => ⟨S256x1, .f32⟩
  | .hbm, ⟨65, _⟩ => ⟨S256, .f32⟩
  | .local _ .vmem, ⟨0, _⟩ => ⟨S5120x128, .f32⟩
  | .local _ .vmem, ⟨1, _⟩ => ⟨S5120x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S1x128, .bf16⟩
  | .local _ .vmem, ⟨11, _⟩ => ⟨S1x1, .f32⟩
  | .local _ .vmem, ⟨12, _⟩ => ⟨S256x5120, .f32⟩
  | .local _ .vmem, ⟨13, _⟩ => ⟨S256x5120, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5120 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S128x1_S1x128_1_0 : S128x1.Transposes [1, 0] S1x128
  shapeCasts_S128_S1x128 : S128.ShapeCasts S1x128
  shapeCasts_S1_S1x1 : S1.ShapeCasts S1x1
  inb_S5120x128_S5120x128_0_0 : ∀ a, (![0, 0] : Fin 2 → Nat) a + S5120x128.size a ≤ S5120x128.size a
  h_S5120x128 : 0 < S5120x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x5120 : S1x1.Broadcasts S1x5120
  shapeCasts_S1x5120_S1x5120 : S1x5120.ShapeCasts S1x5120
  broadcasts_S1x5120_S256x5120 : S1x5120.Broadcasts S256x5120
  inb_S256x5120_S256x5120_0_0 : ∀ a, (![0, 0] : Fin 2 → Nat) a + S256x5120.size a ≤ S256x5120.size a
  h_S256x5120 : 0 < S256x5120.numel
  bcast_S_S256 : S_.BroadcastsInDim S256 (![] : Fin 0 → Fin S256.rank)
  bcast_S256_S256x1_0 : S256.BroadcastsInDim S256x1 (![0] : Fin 1 → Fin S256x1.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  dot_S5120x128_S128x128_S5120x128_1_0_0_1_n_n_wf : DotDims.WF S5120x128 S128x128 S5120x128 [1] [0] [0] [1] [] []
  dot_S1x128_S5120x128_S1x5120_1_1_0_0_n_n_wf : DotDims.WF S1x128 S5120x128 S1x5120 [1] [1] [0] [0] [] []
  gather_S50000x128_S256x1_S256x128_1_0_n_n_0_1_1128_wf : GatherDims.WF S50000x128 S256x1 S256x128 [1] [0] [] [0] [] 1 ![1, 128]
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S5120x128.size a < S50000x128.size a
  hwx0_0 : ∀ i : grid0.Coords, EltTy.bits .f32 = 32 ∨ (Rect.unit (s := S50000x128) (fun a => cc0_transform_0 i a * S5120x128.size a) (fun a => (Pipeline.Clip.of (cc0_transform_0 i a) (S5120x128.size a) (S50000x128.size a)).extent (S5120x128.size a)) fun a => Pipeline.Clip.inb (Pipeline.Clip.ok_of (hstart0_0 i a))).WholeWords (EltTy.packing .f32)
  hwxs0_0 : ∀ i : grid0.Coords, EltTy.bits .f32 = 32 ∨ (Rect.unit (s := S5120x128) (fun _ => 0) (fun a => (Pipeline.Clip.of (cc0_transform_0 i a) (S5120x128.size a) (S50000x128.size a)).extent (S5120x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .bf16 = 32 ∨ (Rect.block (s := S1x128) S1x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S256x5120.size a < S256x50000.size a
  hwx0_11 : ∀ i : grid0.Coords, EltTy.bits .f32 = 32 ∨ (Rect.unit (s := S256x50000) (fun a => cc0_transform_11 i a * S256x5120.size a) (fun a => (Pipeline.Clip.of (cc0_transform_11 i a) (S256x5120.size a) (S256x50000.size a)).extent (S256x5120.size a)) fun a => Pipeline.Clip.inb (Pipeline.Clip.ok_of (hstart0_11 i a))).WholeWords (EltTy.packing .f32)
  hwxs0_11 : ∀ i : grid0.Coords, EltTy.bits .f32 = 32 ∨ (Rect.unit (s := S256x5120) (fun _ => 0) (fun a => (Pipeline.Clip.of (cc0_transform_11 i a) (S256x5120.size a) (S256x50000.size a)).extent (S256x5120.size a)) fun a => (Nat.zero_add _).trans_le (Pipeline.Clip.extent_le (Pipeline.Clip.ok_of (hstart0_11 i a)))).WholeWords (EltTy.packing .f32)

variable [Facts₀]

def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S1x128_S5120x128_S1x5120_1_1_0_0_n_n : DotDims S1x128 S5120x128 S1x5120 where
  lhsContracting := [1]
  rhsContracting := [1]
  lhsNonContracting := [0]
  rhsNonContracting := [0]
  lhsBatch := []
  rhsBatch := []
  wf := dot_S1x128_S5120x128_S1x5120_1_1_0_0_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpecClip (Memref.whole main_arg0) S5120x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpecClip (Memref.whole main_v11) S256x5120.size cc0_transform_11 reads0_11 true false 2 stage0_11 sem0_11
    hrank0 hreads0_11 hstart0_11 nbuf0_11 (Memref.isWhole_whole _) hwx0_11 hwxs0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S256 : Shape := ⟨1, ![256]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S50000x1 : Shape := ⟨2, ![50000, 1]⟩
abbrev S1x1 : Shape := ⟨2, ![1, 1]⟩
abbrev S50000 : Shape := ⟨1, ![50000]⟩
abbrev S1x50000 : Shape := ⟨2, ![1, 50000]⟩
abbrev S256x50000 : Shape := ⟨2, ![256, 50000]⟩
abbrev S256x1 : Shape := ⟨2, ![256, 1]⟩
abbrev S256x128 : Shape := ⟨2, ![256, 128]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .i1⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .i1⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .i1⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .i1⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x1, .f32⟩
  | .hbm, ⟨63, _⟩ => ⟨S1x1, .f32⟩
  | .hbm, ⟨64, _⟩ => ⟨S50000x1, .f32⟩
  | .hbm, ⟨65, _⟩ => ⟨S50000x1, .f32⟩
  | .hbm, ⟨66, _⟩ => ⟨S50000x1, .f32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000, .f32⟩
  | .hbm, ⟨75, _⟩ => ⟨S1x50000, .f32⟩
  | .hbm, ⟨76, _⟩ => ⟨S256x50000, .f32⟩
  | .hbm, ⟨77, _⟩ => ⟨S_, .i32⟩
  | .hbm, ⟨78, _⟩ => ⟨S256, .i32⟩
  | .hbm, ⟨79, _⟩ => ⟨S256, .i1⟩
  | .hbm, ⟨80, _⟩ => ⟨S_, .i32⟩
  | .hbm, ⟨81, _⟩ => ⟨S256, .i32⟩
  | .hbm, ⟨82, _⟩ => ⟨S256, .i32⟩
  | .hbm, ⟨83, _⟩ => ⟨S256, .i32⟩
  | .hbm, ⟨84, _⟩ => ⟨S256x1, .i32⟩
  | .hbm, ⟨85, _⟩ => ⟨S256x128, .f32⟩
  | .hbm, ⟨86, _⟩ => ⟨S256x128, .f32⟩
  | .hbm, ⟨87, _⟩ => ⟨S1x128, .f32⟩
  | .hbm, ⟨88, _⟩ => ⟨S256x128, .f32⟩
  | .hbm, ⟨89, _⟩ => ⟨S256x128, .f32⟩
  | .hbm, ⟨90, _⟩ => ⟨S_, .f32⟩
  | .hbm, ⟨91, _⟩ => ⟨S256x128, .f32⟩
  | .hbm, ⟨92, _⟩ => ⟨S256x128, .i1⟩
  | .hbm, ⟨93, _⟩ => ⟨S_, .f32⟩
  | .hbm, ⟨94, _⟩ => ⟨S256x128, .f32⟩
  | .hbm, ⟨95, _⟩ => ⟨S256x128, .f32⟩
  | .hbm, ⟨96, _⟩ => ⟨S256x128, .f32⟩
  | .hbm, ⟨97, _⟩ => ⟨S256x128, .f32⟩
  | .hbm, ⟨98, _⟩ => ⟨S1x128, .f32⟩
  | .hbm, ⟨99, _⟩ => ⟨S256x128, .f32⟩
  | .hbm, ⟨100, _⟩ => ⟨S256x128, .f32⟩
  | .hbm, ⟨101, _⟩ => ⟨S_, .f32⟩
  | .hbm, ⟨102, _⟩ => ⟨S256x128, .f32⟩
  | .hbm, ⟨103, _⟩ => ⟨S256x128, .i1⟩
  | .hbm, ⟨104, _⟩ => ⟨S_, .f32⟩
  | .hbm, ⟨105, _⟩ => ⟨S256x128, .f32⟩
  | .hbm, ⟨106, _⟩ => ⟨S256x128, .f32⟩
  | .hbm, ⟨107, _⟩ => ⟨S256x128, .f32⟩
  | .hbm, ⟨108, _⟩ => ⟨S256x1, .f32⟩
  | .hbm, ⟨109, _⟩ => ⟨S1x1, .f32⟩
  | .hbm, ⟨110, _⟩ => ⟨S256x1, .f32⟩
  | .hbm, ⟨111, _⟩ => ⟨S256x1, .f32⟩
  | .hbm, ⟨112, _⟩ => ⟨S256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_cst_0 : Ref sig .tc := ⟨.hbm, 47, rfl⟩
abbrev main_call2_v2 : Ref sig .tc := ⟨.hbm, 48, rfl⟩
abbrev main_call2_v3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_call3_cst : Ref sig .tc := ⟨.hbm, 55, rfl⟩
abbrev main_call3_v0 : Ref sig .tc := ⟨.hbm, 56, rfl⟩
abbrev main_call3_v1 : Ref sig .tc := ⟨.hbm, 57, rfl⟩
abbrev main_call3_cst_0 : Ref sig .tc := ⟨.hbm, 58, rfl⟩
abbrev main_call3_v2 : Ref sig .tc := ⟨.hbm, 59, rfl⟩
abbrev main_call3_v3 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst : Ref sig .tc := ⟨.hbm, 68, rfl⟩
abbrev main_v26 : Ref sig .tc := ⟨.hbm, 69, rfl⟩
abbrev main_v27 : Ref sig .tc := ⟨.hbm, 70, rfl⟩
abbrev main_cst_0 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c : Ref sig .tc := ⟨.hbm, 77, rfl⟩
abbrev main_v33 : Ref sig .tc := ⟨.hbm, 78, rfl⟩
abbrev main_v34 : Ref sig .tc := ⟨.hbm, 79, rfl⟩
abbrev main_c_1 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_call4_cst : Ref sig .tc := ⟨.hbm, 90, rfl⟩
abbrev main_call4_v0 : Ref sig .tc := ⟨.hbm, 91, rfl⟩
abbrev main_call4_v1 : Ref sig .tc := ⟨.hbm, 92, rfl⟩
abbrev main_call4_cst_0 : Ref sig .tc := ⟨.hbm, 93, rfl⟩
abbrev main_call4_v2 : Ref sig .tc := ⟨.hbm, 94, rfl⟩
abbrev main_call4_v3 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_call5_cst : Ref sig .tc := ⟨.hbm, 101, rfl⟩
abbrev main_call5_v0 : Ref sig .tc := ⟨.hbm, 102, rfl⟩
abbrev main_call5_v1 : Ref sig .tc := ⟨.hbm, 103, rfl⟩
abbrev main_call5_cst_0 : Ref sig .tc := ⟨.hbm, 104, rfl⟩
abbrev main_call5_v2 : Ref sig .tc := ⟨.hbm, 105, rfl⟩
abbrev main_call5_v3 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S50000_S1x50000_1 : S50000.BroadcastsInDim S1x50000 (![1] : Fin 1 → Fin S1x50000.rank)
  bcast_S1x50000_S256x50000_0_1 : S1x50000.BroadcastsInDim S256x50000 (![0, 1] : Fin 2 → Fin S256x50000.rank)
  bcast_S_S256 : S_.BroadcastsInDim S256 (![] : Fin 0 → Fin S256.rank)
  bcast_S256_S256x1_0 : S256.BroadcastsInDim S256x1 (![0] : Fin 1 → Fin S256x1.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1x1_S256x1_0_1 : S1x1.BroadcastsInDim S256x1 (![0, 1] : Fin 2 → Fin S256x1.rank)
  shapeCasts_S256x1_S256 : S256x1.ShapeCasts S256
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  gather_S50000x128_S256x1_S256x128_1_0_n_n_0_1_1128_wf : GatherDims.WF S50000x128 S256x1 S256x128 [1] [0] [] [0] [] 1 ![1, 128]
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.BodyBits.lean ====
/-
  The kernel body as a function of what its windows' staging buffers hold, at any float instance.

  The body loads its eleven input buffers whole, computes, and stores one value over the whole of the
  output buffer.  So after the body the output buffer holds `outBlock` of the eleven inputs' contents,
  whatever it held before, and the inputs hold what they held.  `outBlock` is the store's payload:
  four dense layers with the leaky rectifier on the rows of the node block, the last affine map
  contracted against the rows, the logistic function, the result broadcast down the 256 rows.
-/
import proofs.«176911_j83107617178205_2_alg».proof.Proof.Gen.Kernel.Frame
import proofs.«176911_j83107617178205_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each a whole buffer -/

abbrev rNodes : Rect S5120x128 := Rect.unit (s := S5120x128) ![0, 0] S5120x128.size inb_S5120x128_S5120x128_0_0
abbrev rWeight : Rect S128x128 := Rect.unit (s := S128x128) ![0, 0] S128x128.size inb_S128x128_S128x128_0_0
abbrev rRow : Rect S1x128 := Rect.unit (s := S1x128) ![0, 0] S1x128.size inb_S1x128_S1x128_0_0
abbrev rOne : Rect S1x1 := Rect.unit (s := S1x1) ![0, 0] S1x1.size inb_S1x1_S1x1_0_0
abbrev rOut : Rect S256x5120 := Rect.unit (s := S256x5120) ![0, 0] S256x5120.size inb_S256x5120_S256x5120_0_0

/-- The stored value as a function of the eleven inputs' contents. -/
def payload (x0 : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) : Vec F S256x5120 .f32 :=
  k0_pay1 (k0_pay2 x0 x1 x2 x3 x4 x5 x6) (k0_pay3 x0 x1 x2 x3 x4 x5 x6) x7 x8 x9 x10

/-- What the output buffer holds after the body: its one store, read back as a piece over the whole buffer. -/
def outBlock (x0 : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) : Vec F S256x5120 .f32 :=
  View.canon [⟨rOut, k0_pay1
      (k0_pay2 (View.ld x0 rNodes) (View.ld x1 rWeight) (View.ld x2 rRow) (View.ld x3 rWeight) (View.ld x4 rRow) (View.ld x5 rWeight) (View.ld x6 rRow))
      (k0_pay3 (View.ld x0 rNodes) (View.ld x1 rWeight) (View.ld x2 rRow) (View.ld x3 rWeight) (View.ld x4 rRow) (View.ld x5 rWeight) (View.ld x6 rRow))
      (View.ld x7 rWeight) (View.ld x8 rRow) (View.ld x9 rRow) (View.ld x10 rOne)⟩]

/-- The one store covers the output buffer. -/
theorem cover_out (p0 : Vec F S256x5120 .f32) (y : S256x5120.Idx) :
    ∃ pc ∈ ([⟨rOut, p0⟩] : List (View.Piece (Elt F) S256x5120 .f32)), y ∈ pc.1.set :=
  View.cover_of_tiled [⟨rOut, p0⟩] S256x5120.size (by rfl) y

/-- Every rectangle is its whole buffer at offset zero, so the piece is the payload of the contents themselves. -/
theorem outBlock_eq (x0 : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) :
    outBlock x0 x1 x2 x3 x4 x5 x6 x7 x8 x9 x10 = payload x0 x1 x2 x3 x4 x5 x6 x7 x8 x9 x10 := by
  have hz : (![0, 0] : Fin 2 → Nat) = fun _ => 0 := funext fun a => by fin_cases a <;> rfl
  unfold outBlock payload
  rw [View.canon_unit_zero hz]
  simp only [View.ld_unit_zero (S := S5120x128) hz, View.ld_unit_zero (S := S128x128) hz, View.ld_unit_zero (S := S1x128) hz,
    View.ld_unit_zero (S := S1x1) hz]

/-! ## The body's triple -/

set_option maxHeartbeats 4000000 in
/-- On whole staging buffers, the inputs' at contents `x0 … x10` and the output's at anything, the body runs to the
    continuation with the inputs as they were and the output at `outBlock` of them. -/
theorem sound_kernel (c : Dev nD) (E : Set ℕ) (i : grid0.Coords)
    (arg1 : Memref sig .tc .vmem S5120x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S128x128 .bf16) (harg8 : arg8.IsWhole)
    (arg9 : Memref sig .tc .vmem S1x128 .f32) (harg9 : arg9.IsWhole) (arg10 : Memref sig .tc .vmem S1x128 .bf16) (harg10 : arg10.IsWhole)
    (arg11 : Memref sig .tc .vmem S1x1 .f32) (harg11 : arg11.IsWhole) (arg12 : Memref sig .tc .vmem S256x5120 .f32) (harg12 : arg12.IsWhole)
    (x0 : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (outBlock x0 x1 x2 x3 x4 x5 x6 x7 x8 x9 x10)) -∗ K ⟨⟩))
      ⊢ wp frame (wpE (defs₀ (F := F)) Variants.none c none) E
          (cc0__prob_kernel i arg1 harg1 arg2 harg2 arg3 harg3 arg4 harg4 arg5 harg5 arg6 harg6 arg7 harg7 arg8 harg8 arg9 harg9 arg10 harg10 arg11 harg11 arg12 harg12) K := by
  simp only [cc0__prob_kernel_eq_skeleton]; unfold cc0__prob_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover_out _)

end Cert.Kernel.Body

end
-- ==== Proof.FrameBits.lean ====
/-
  The frame of the kernel as printed, at any float instance.

  The grid has ten points; the node array's 50000 rows are staged in blocks of 5120, so the last block overhangs
  the array by 1200 rows, and so does the last block of the output along its 50000 columns.  What the node buffer
  holds past the array's end is not determined, the body computes from it all the same, and at the word level
  nothing says that a column of the stored value depends on its own node row only.  So nothing is stated of the
  output: its window is forgotten, the proof data is read relationally, and the run's post speaks of the node
  array (only read, hence unchanged) and of the argument arrays no window stages (untouched by the region and by
  the host lines around it).
-/
import proofs.«176911_j83107617178205_2_alg».proof.Proof.BodyBits
import Idealize.ShloMosaic.Lib.Pipeline.Value
import Idealize.ShloMosaic.Lib.ValueIdx

set_option maxRecDepth 16384

noncomputable section

namespace Cert.Kernel.Forget

open Cert.Kernel Cert.Kernel.Gen Cert.Kernel.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The node block at point `t` as the staging buffer holds it after the body, on the rows inside the array;
    past the array's end (the last block overhangs it) the zero word, which nothing reads. -/
def nodes (c : Dev nD) (t : Fin cfg0.N) : S5120x128.Idx → Elt F .f32 :=
  win0_0.fill (grid0.coords t) (fun _ => Scalar.ofBits .f32 0#32) (iblk m c 0 t)

/-- The arrays as the region finds them; after the body each input's buffer at its block and the output's at the
    body's value of them; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => nodes m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (nodes m c t) (iblk m c 1 t) (iblk m c 2 t) (iblk m c 3 t) (iblk m c 4 t) (iblk m c 5 t)
        (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = nodes m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t
    = outBlock (nodes m c t) (iblk m c 1 t) (iblk m c 2 t) (iblk m c 3 t) (iblk m c 4 t) (iblk m c 5 t)
        (iblk m c 6 t) (iblk m c 7 t) (iblk m c 8 t) (iblk m c 9 t) (iblk m c 10 t) := by dsimp only [dats]

/-- The node window is fetched at every point: its buffer holds the block on the rows inside the array and, past the
    array's end, whatever it held (`d`). -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; dsimp only [dats]

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The output window is written back at every point, so its buffer holds nothing the body may rely on. -/
theorem before0_11 (c : Dev nD) (t : Fin cfg0.N) (d) : (dats m 0 c).before 11 t d = d := by
  refine (dats m 0 c).before_out_reset 11 rfl t ?_ d
  by_cases h0 : t.val = 0
  · exact .inl h0
  · exact .inr ⟨h0, flush0_11 _⟩

/-! ## The body obligation, the output window forgotten

  At this instance nothing is claimed of the output array, and nothing can be said of the columns of the output block
  computed from node rows past the array's end; the output buffer is handed to the body and taken back at
  contents nobody names. -/

/-- The output window, and no other, is forgotten. -/
abbrev forgets : Fin cfg0.W → Bool := fun | ⟨11, _⟩ => true | _ => false

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t)
    (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0
    unfold nodes
    rw [win0_0.cut_fill]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  iexact H11

theorem body_obligation (c : Dev nD) :
    BodyObligationLoose (dats (F := F) m 0 c) (defs₀ (F := F)) Variants.none () Set.univ forgets := fun t => by
  rw [bigSep_W0, bigSep_W0]
  simp only [forgets]
  exact sound_body m c t

/-! ## The run -/

/-- The argument arrays that no window stages. -/
def argSet : Finset (Ref sig .tc) :=
  {main_arg1, main_arg2, main_arg3, main_arg4, main_arg5, main_arg6, main_arg7, main_arg8, main_arg9, main_arg10, main_arg11, main_arg12, main_arg13, main_arg14, main_arg15, main_arg16, main_arg17}

/-- Every other buffer: nothing is claimed of these, among them every buffer a host line after the region writes. -/
def others : Finset (Ref sig .tc) := Finset.univ.filter fun b => b ∉ argSet

set_option maxHeartbeats 4000000 in
/-- A host line after the region writes its own result buffer, which is no argument. -/
theorem tail_writes_others : ∀ ops ∈ ([hostOps1, hostOps1_1, hostOps1_2, hostOps1_3, hostOps1_4] : List (List (HloOp τ sig (Elt F)))), ∀ op ∈ ops,
    ∀ b : Ref sig .tc, Proc.devRef .tc b ∈ op.writes → b ∈ (others : Finset (Ref sig .tc)) := by
  intro ops hops op hop b hb
  have key : ∀ v : Ref sig .tc, v ∉ argSet → (Proc.devRef .tc b : DevRef τ sig) = Proc.devRef .tc v → b ∈ (others : Finset (Ref sig .tc)) := fun v hv h => by
    have hbv : b = v := by
      by_contra hne
      exact StableHlo.devRef_ne_of_ne hne h
    subst hbv
    exact Finset.mem_filter.mpr ⟨Finset.mem_univ _, hv⟩
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl | rfl
    all_goals (simp only [StableHlo.nullary_writes, StableHlo.unary_writes, StableHlo.binary_writes, StableHlo.ternary_writes, StableHlo.quaternary_writes, StableHlo.reshape_writes, StableHlo.binaryIndexed_writes, Finset.mem_singleton] at hb; exact key _ (by decide) hb)
  · simp only [hostOps1_1, List.mem_cons, List.mem_nil_iff, or_false] at hop
    rcases hop with rfl | rfl | rfl | rfl | rfl | rfl | rfl
    all_goals (simp only [StableHlo.nullary_writes, StableHlo.unary_writes, StableHlo.binary_writes, StableHlo.ternary_writes, StableHlo.quaternary_writes, StableHlo.reshape_writes, StableHlo.binaryIndexed_writes, Finset.mem_singleton] at hb; exact key _ (by decide) hb)
  · simp only [hostOps1_2, List.mem_cons, List.mem_nil_iff, or_false] at hop
    rcases hop with rfl | rfl | rfl | rfl
    all_goals (simp only [StableHlo.nullary_writes, StableHlo.unary_writes, StableHlo.binary_writes, StableHlo.ternary_writes, StableHlo.quaternary_writes, StableHlo.reshape_writes, StableHlo.binaryIndexed_writes, Finset.mem_singleton] at hb; exact key _ (by decide) hb)
  · simp only [hostOps1_3, List.mem_cons, List.mem_nil_iff, or_false] at hop
    rcases hop with rfl | rfl | rfl | rfl | rfl | rfl | rfl
    all_goals (simp only [StableHlo.nullary_writes, StableHlo.unary_writes, StableHlo.binary_writes, StableHlo.ternary_writes, StableHlo.quaternary_writes, StableHlo.reshape_writes, StableHlo.binaryIndexed_writes, Finset.mem_singleton] at hb; exact key _ (by decide) hb)
  · simp only [hostOps1_4, List.mem_cons, List.mem_nil_iff, or_false] at hop
    rcases hop with rfl | rfl | rfl | rfl | rfl
    all_goals (simp only [StableHlo.nullary_writes, StableHlo.unary_writes, StableHlo.binary_writes, StableHlo.ternary_writes, StableHlo.quaternary_writes, StableHlo.reshape_writes, StableHlo.binaryIndexed_writes, Finset.mem_singleton] at hb; exact key _ (by decide) hb)

set_option backward.isDefEq.respectTransparency.types false in
/-- Every weakly fair execution of @main terminates; the node array ends as some contents it may hold after the
    write-backs, which for an array only read is its entry contents; every argument no window stages ends at its
    entry contents. -/
theorem run_main : θ_run defs (onTc (τ := τ) (main (F := F))) (s₀ m ρ)
    (Pipeline.RDat.FramePostR (cfgs 0) (fun c => (dats m 0 c).toRForget forgets) others (fun c b => V0 m c (Proc.devRef .tc b))) :=
  Pipeline.RDat.θ_run_frame_around_T cfgs (0 : Fin 1) launch0 defs₀ Variants.none (fun c => (dats m 0 c).toRForget forgets) others m ρ main
    (hbody := fun c => (body_obligation m c).toRForget) (hshare := fun c => ((dats m 0 c).toRForget forgets).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps) (hT := tail_writes_others)
    (hmain := hmain m Variants.none) (hA := A_eq m) (hΦ := fun _ _ => rfl)

/-- An argument no window stages is among the buffers the run's post speaks of. -/
theorem mem_rest (b : Ref sig .tc) (hs : b.isScoped = false) (ha : ∀ w, (spec0 w).arr.view.ref ≠ b) (hb : b ∈ argSet) :
    b ∈ Pipeline.restRefs sig spec0 \ (others : Finset (Ref sig .tc)) :=
  Finset.mem_sdiff.mpr ⟨Pipeline.mem_restRefs_of b hs ha, fun h => (Finset.mem_filter.mp h).2 hb⟩

/-- THE FRAME: the run terminates, faults nowhere, and the eighteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(Eq.mp (congrFun (((dats m 0 c).toRForget forgets).ArrAt_in 0 rfl _) _) ((h c).1 0)).trans ((A_eq m c 0).trans (V_main_arg0 m c)),
      ((h c).2 main_arg1 (mem_rest main_arg1 (by decide) (by decide) (by decide))).trans (V_main_arg1 m c),
      ((h c).2 main_arg2 (mem_rest main_arg2 (by decide) (by decide) (by decide))).trans (V_main_arg2 m c),
      ((h c).2 main_arg3 (mem_rest main_arg3 (by decide) (by decide) (by decide))).trans (V_main_arg3 m c),
      ((h c).2 main_arg4 (mem_rest main_arg4 (by decide) (by decide) (by decide))).trans (V_main_arg4 m c),
      ((h c).2 main_arg5 (mem_rest main_arg5 (by decide) (by decide) (by decide))).trans (V_main_arg5 m c),
      ((h c).2 main_arg6 (mem_rest main_arg6 (by decide) (by decide) (by decide))).trans (V_main_arg6 m c),
      ((h c).2 main_arg7 (mem_rest main_arg7 (by decide) (by decide) (by decide))).trans (V_main_arg7 m c),
      ((h c).2 main_arg8 (mem_rest main_arg8 (by decide) (by decide) (by decide))).trans (V_main_arg8 m c),
      ((h c).2 main_arg9 (mem_rest main_arg9 (by decide) (by decide) (by decide))).trans (V_main_arg9 m c),
      ((h c).2 main_arg10 (mem_rest main_arg10 (by decide) (by decide) (by decide))).trans (V_main_arg10 m c),
      ((h c).2 main_arg11 (mem_rest main_arg11 (by decide) (by decide) (by decide))).trans (V_main_arg11 m c),
      ((h c).2 main_arg12 (mem_rest main_arg12 (by decide) (by decide) (by decide))).trans (V_main_arg12 m c),
      ((h c).2 main_arg13 (mem_rest main_arg13 (by decide) (by decide) (by decide))).trans (V_main_arg13 m c),
      ((h c).2 main_arg14 (mem_rest main_arg14 (by decide) (by decide) (by decide))).trans (V_main_arg14 m c),
      ((h c).2 main_arg15 (mem_rest main_arg15 (by decide) (by decide) (by decide))).trans (V_main_arg15 m c),
      ((h c).2 main_arg16 (mem_rest main_arg16 (by decide) (by decide) (by decide))).trans (V_main_arg16 m c),
      ((h c).2 main_arg17 (mem_rest main_arg17 (by decide) (by decide) (by decide))).trans (V_main_arg17 m c)⟩) (run_main m ρ)

end Cert.Kernel.Forget

end
-- ==== Proof.BodyIdeal.lean ====
/-
  The kernel body as a function of what its windows' staging buffers hold, at any float instance.

  The body loads its eleven input buffers whole, computes, and stores one value over the whole of the
  output buffer.  So after the body the output buffer holds `outBlock` of the eleven inputs' contents,
  whatever it held before, and the inputs hold what they held.  `outBlock` is the store's payload:
  four dense layers with the leaky rectifier on the rows of the node block, the last affine map
  contracted against the rows, the logistic function, the result broadcast down the 256 rows.
-/
import proofs.«176911_j83107617178205_2_alg».proof.Proof.Gen.KernelIdeal.Frame
import proofs.«176911_j83107617178205_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each a whole buffer -/

abbrev rNodes : Rect S5120x128 := Rect.unit (s := S5120x128) ![0, 0] S5120x128.size inb_S5120x128_S5120x128_0_0
abbrev rWeight : Rect S128x128 := Rect.unit (s := S128x128) ![0, 0] S128x128.size inb_S128x128_S128x128_0_0
abbrev rRow : Rect S1x128 := Rect.unit (s := S1x128) ![0, 0] S1x128.size inb_S1x128_S1x128_0_0
abbrev rOne : Rect S1x1 := Rect.unit (s := S1x1) ![0, 0] S1x1.size inb_S1x1_S1x1_0_0
abbrev rOut : Rect S256x5120 := Rect.unit (s := S256x5120) ![0, 0] S256x5120.size inb_S256x5120_S256x5120_0_0

/-- The stored value as a function of the eleven inputs' contents. -/
def payload (x0 : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) : Vec F S256x5120 .f32 :=
  k0_pay1 (k0_pay2 x0 x1 x2 x3 x4 x5 x6) (k0_pay3 x0 x1 x2 x3 x4 x5 x6) x7 x8 x9 x10

/-- What the output buffer holds after the body: its one store, read back as a piece over the whole buffer. -/
def outBlock (x0 : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) : Vec F S256x5120 .f32 :=
  View.canon [⟨rOut, k0_pay1
      (k0_pay2 (View.ld x0 rNodes) (View.ld x1 rWeight) (View.ld x2 rRow) (View.ld x3 rWeight) (View.ld x4 rRow) (View.ld x5 rWeight) (View.ld x6 rRow))
      (k0_pay3 (View.ld x0 rNodes) (View.ld x1 rWeight) (View.ld x2 rRow) (View.ld x3 rWeight) (View.ld x4 rRow) (View.ld x5 rWeight) (View.ld x6 rRow))
      (View.ld x7 rWeight) (View.ld x8 rRow) (View.ld x9 rRow) (View.ld x10 rOne)⟩]

/-- The one store covers the output buffer. -/
theorem cover_out (p0 : Vec F S256x5120 .f32) (y : S256x5120.Idx) :
    ∃ pc ∈ ([⟨rOut, p0⟩] : List (View.Piece (Elt F) S256x5120 .f32)), y ∈ pc.1.set :=
  View.cover_of_tiled [⟨rOut, p0⟩] S256x5120.size (by rfl) y

/-- Every rectangle is its whole buffer at offset zero, so the piece is the payload of the contents themselves. -/
theorem outBlock_eq (x0 : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) :
    outBlock x0 x1 x2 x3 x4 x5 x6 x7 x8 x9 x10 = payload x0 x1 x2 x3 x4 x5 x6 x7 x8 x9 x10 := by
  have hz : (![0, 0] : Fin 2 → Nat) = fun _ => 0 := funext fun a => by fin_cases a <;> rfl
  unfold outBlock payload
  rw [View.canon_unit_zero hz]
  simp only [View.ld_unit_zero (S := S5120x128) hz, View.ld_unit_zero (S := S128x128) hz, View.ld_unit_zero (S := S1x128) hz,
    View.ld_unit_zero (S := S1x1) hz]

/-! ## The body's triple -/

set_option maxHeartbeats 4000000 in
/-- On whole staging buffers, the inputs' at contents `x0 … x10` and the output's at anything, the body runs to the
    continuation with the inputs as they were and the output at `outBlock` of them. -/
theorem sound_kernel (c : Dev nD) (E : Set ℕ) (i : grid0.Coords)
    (arg1 : Memref sig .tc .vmem S5120x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S128x128 .bf16) (harg8 : arg8.IsWhole)
    (arg9 : Memref sig .tc .vmem S1x128 .f32) (harg9 : arg9.IsWhole) (arg10 : Memref sig .tc .vmem S1x128 .bf16) (harg10 : arg10.IsWhole)
    (arg11 : Memref sig .tc .vmem S1x1 .f32) (harg11 : arg11.IsWhole) (arg12 : Memref sig .tc .vmem S256x5120 .f32) (harg12 : arg12.IsWhole)
    (x0 : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (outBlock x0 x1 x2 x3 x4 x5 x6 x7 x8 x9 x10)) -∗ K ⟨⟩))
      ⊢ wp frame (wpE (defs₀ (F := F)) Variants.none c none) E
          (cc0__prob_kernel i arg1 harg1 arg2 harg2 arg3 harg3 arg4 harg4 arg5 harg5 arg6 harg6 arg7 harg7 arg8 harg8 arg9 harg9 arg10 harg10 arg11 harg11 arg12 harg12) K := by
  simp only [cc0__prob_kernel_eq_skeleton]; unfold cc0__prob_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover_out _)

end Cert.KernelIdeal.Body

end
-- ==== Proof.FrameIdeal.lean ====
/-
  The idealized kernel's run, with the arrays' final contents named.

  The grid has ten points; the node array's 50000 rows are staged in blocks of 5120, so the last block overhangs
  the array by 1200 rows, and so does the last block of the output along its 50000 columns.  What the staging
  buffers hold past the arrays' ends is not determined; the body computes from it all the same.  The proof data
  therefore states the node buffer and the output buffer on their parts inside the arrays only, and the body
  obligation holds because column `q` of the stored value depends on the node block only through row `q`
  (assumed here as `RowLocal`, proved where the body's arithmetic is read): a column that is written back
  has its node row inside the array.
-/
import proofs.«176911_j83107617178205_2_alg».proof.Proof.BodyIdeal
import Idealize.ShloMosaic.Lib.Pipeline.Value
import Idealize.ShloMosaic.Lib.ValueIdx

set_option maxRecDepth 16384

noncomputable section

namespace Cert.KernelIdeal.Exact

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The node block at point `t` as the staging buffer holds it after the body, on the rows inside the array;
    past the array's end (the last block overhangs it) the zero word, which nothing reads. -/
def nodes (c : Dev nD) (t : Fin cfg0.N) : S5120x128.Idx → Elt F .f32 :=
  win0_0.fill (grid0.coords t) (fun _ => Scalar.ofBits .f32 0#32) (iblk m c 0 t)

/-- The arrays as the region finds them; after the body each input's buffer at its block and the output's at the
    body's value of them; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => nodes m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (nodes m c t) (iblk m c 1 t) (iblk m c 2 t) (iblk m c 3 t) (iblk m c 4 t) (iblk m c 5 t)
        (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = nodes m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t
    = outBlock (nodes m c t) (iblk m c 1 t) (iblk m c 2 t) (iblk m c 3 t) (iblk m c 4 t) (iblk m c 5 t)
        (iblk m c 6 t) (iblk m c 7 t) (iblk m c 8 t) (iblk m c 9 t) (iblk m c 10 t) := by dsimp only [dats]

/-- The node window is fetched at every point: its buffer holds the block on the rows inside the array and, past the
    array's end, whatever it held (`d`). -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; dsimp only [dats]

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The output window is written back at every point, so its buffer holds nothing the body may rely on. -/
theorem before0_11 (c : Dev nD) (t : Fin cfg0.N) (d) : (dats m 0 c).before 11 t d = d := by
  refine (dats m 0 c).before_out_reset 11 rfl t ?_ d
  by_cases h0 : t.val = 0
  · exact .inl h0
  · exact .inr ⟨h0, flush0_11 _⟩

/-! ## What the overhang cannot reach -/

/-- The cut of the output block along the node axis is the cut of the node block along its rows, at every point,
    and neither block is cut along the other axis. -/
theorem clip_facts : ∀ t : Fin cfg0.N, win0_11.xsize (grid0.coords t) 1 = win0_0.xsize (grid0.coords t) 0
    ∧ win0_0.xsize (grid0.coords t) 1 = 128 :=
  (by decide +kernel : ∀ t : Fin grid0.N, win0_11.xsize (grid0.coords t) 1 = win0_0.xsize (grid0.coords t) 0
    ∧ win0_0.xsize (grid0.coords t) 1 = 128)

/-- THE LOCALITY OF THE BODY, assumed here and proved where the body's arithmetic is read: column `q` of the stored value
    depends on the node block only through its row `q`. -/
def RowLocal (F : FTy → Type) [FloatOps F] : Prop :=
  ∀ (x0 x0' : Vec F S5120x128 .f32) (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) (b : Fin 256) (q : Fin 5120),
    (∀ k : Fin 128, x0 (ix2 q k) = x0' (ix2 q k)) →
    payload x0 x1 x2 x3 x4 x5 x6 x7 x8 x9 x10 (ix2 b q) = payload x0' x1 x2 x3 x4 x5 x6 x7 x8 x9 x10 (ix2 b q)

/-- Whatever the node buffer holds past the array's end, the columns of the output block that are written back are
    the same: a written column's node row lies inside the array. -/
theorem cut_out (hloc : RowLocal F) (c : Dev nD) (t : Fin cfg0.N) (d0 : S5120x128.Idx → Elt F .f32)
    (x1 : Vec F S128x128 .bf16) (x2 : Vec F S1x128 .f32) (x3 : Vec F S128x128 .bf16)
    (x4 : Vec F S1x128 .f32) (x5 : Vec F S128x128 .bf16) (x6 : Vec F S1x128 .f32) (x7 : Vec F S128x128 .bf16)
    (x8 : Vec F S1x128 .f32) (x9 : Vec F S1x128 .bf16) (x10 : Vec F S1x1 .f32) :
    win0_11.cut (grid0.coords t) (outBlock (win0_0.fill (grid0.coords t) d0 (iblk m c 0 t)) x1 x2 x3 x4 x5 x6 x7 x8 x9 x10)
      = win0_11.cut (grid0.coords t) (outBlock (nodes m c t) x1 x2 x3 x4 x5 x6 x7 x8 x9 x10) := by
  funext j
  show outBlock _ x1 x2 x3 x4 x5 x6 x7 x8 x9 x10 (win0_11.xinj (grid0.coords t) j)
    = outBlock _ x1 x2 x3 x4 x5 x6 x7 x8 x9 x10 (win0_11.xinj (grid0.coords t) j)
  rw [outBlock_eq, outBlock_eq]
  obtain ⟨b, q, hbq⟩ : ∃ (b : Fin 256) (q : Fin 5120), win0_11.xinj (grid0.coords t) j = ix2 b q :=
    ⟨(win0_11.xinj (grid0.coords t) j) 0, (win0_11.xinj (grid0.coords t) j) 1, eq_ix2 _⟩
  have hq : q.val < win0_0.xsize (grid0.coords t) 0 := by
    have h1 : q.val = (j 1).val := (congrArg Fin.val (congrFun hbq 1)).symm
    rw [h1, ← (clip_facts t).1]; exact (j 1).isLt
  rw [hbq]
  refine hloc _ _ x1 x2 x3 x4 x5 x6 x7 x8 x9 x10 b q fun k => ?_
  have hm : win0_0.moved (grid0.coords t) (ix2 q k) = true :=
    (win0_0.moved_iff _ _).mpr fun a => by
      match a with
      | ⟨0, _⟩ => show q.val < win0_0.xsize (grid0.coords t) 0; exact hq
      | ⟨1, _⟩ => show k.val < win0_0.xsize (grid0.coords t) 1; rw [(clip_facts t).2]; exact k.isLt
  unfold nodes Window.fill
  rw [dif_pos hm, dif_pos hm]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns: the two windows whose last blocks overhang their arrays stated on the part inside only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare (win0_11.fill (grid0.coords t) d (win0_11.cut (grid0.coords t) ((dats m 0 c).after 11 t)))))

set_option maxHeartbeats 2000000 in
theorem sound_body (hloc : RowLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t)
    (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0
    unfold nodes
    rw [win0_0.cut_fill]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  rw [← cut_out m hloc c t d0, win0_11.fill_cut]
  iexact H11

/-- The library's body obligation at every point. -/
theorem body_obligation (hloc : RowLocal F) (c : Dev nD) :
    BodyObligationLoose (dats (F := F) m 0 c) (defs₀ (F := F)) Variants.none () Set.univ := fun t => by
  rw [bigSep_W0, bigSep_W0]
  simp only
  exact sound_body m hloc c t

/-! ## The run -/

set_option backward.isDefEq.respectTransparency.types false in
/-- At the compiled mesh, for any values, from any memory with zero counters: every weakly fair execution of @main
    terminates, every array of the pipeline ends at what the write-backs of the proof data leave there, and every
    other unscoped buffer as the host lines after the region leave it. -/
theorem run_main (hloc : RowLocal F) : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

end Cert.KernelIdeal.Exact

end
-- ==== Proof.Spec.lean ====
/-
  The function both programs compute, index by index, on the extended reals.

  A node's feature row passes through four dense layers, each an affine map followed by the
  leaky rectifier `x ↦ x` for `0 ≤ x` and `c · x` otherwise (the same 32-bit slope word `c` in both
  programs), then through a last affine map to one number and the logistic function.  Nothing here
  mentions a program: the rows, weights and biases are plain functions of finite indices.
-/
import Idealize.ShloMosaic.PureOps.Ideal
import Idealize.ShloMosaic.Lib.ValueIdx

noncomputable section

namespace Cert.Spec

open Idealize.ShloMosaic

/-- The leaky rectifier as both programs spell it: compare with the zero word, keep `x` where
    `x ≥ 0`, else the slope word times `x`. -/
def lrelu (x : EReal) : EReal :=
  Scalar.select (FloatOps.cmpf (F := Ideal) (φ := .f32) .oge x (Ideal.ofBits .f32 0x00000000#32)) x
    (Ideal.ofBits .f32 0x3C23D70A#32 * x)

/-- One dense layer on a row of 128 features: `j ↦ lrelu (∑ₖ h k · w k j + b j)`. -/
def layer (h : Fin 128 → EReal) (w : Fin 128 → Fin 128 → EReal) (b : Fin 128 → EReal) : Fin 128 → EReal :=
  fun j => lrelu ((∑ k : Fin 128, h k * w k j) + b j)

/-- The last affine map to one number: `∑ₖ h k · w k + b`. -/
def logit (h : Fin 128 → EReal) (w : Fin 128 → EReal) (b : EReal) : EReal :=
  (∑ k : Fin 128, h k * w k) + b

/-- The probability of one node: four layers, the last affine map, the logistic function. -/
def probRow (row : Fin 128 → EReal)
    (w1 : Fin 128 → Fin 128 → EReal) (b1 : Fin 128 → EReal)
    (w2 : Fin 128 → Fin 128 → EReal) (b2 : Fin 128 → EReal)
    (w3 : Fin 128 → Fin 128 → EReal) (b3 : Fin 128 → EReal)
    (w4 : Fin 128 → Fin 128 → EReal) (b4 : Fin 128 → EReal)
    (w5 : Fin 128 → EReal) (b5 : EReal) : EReal :=
  Ideal.logistic (logit (layer (layer (layer (layer row w1 b1) w2 b2) w3 b3) w4 b4) w5 b5)

/-- The probability depends on the row only through its values. -/
theorem probRow_congr {row row' : Fin 128 → EReal} (h : ∀ k, row k = row' k)
    (w1 : Fin 128 → Fin 128 → EReal) (b1 : Fin 128 → EReal)
    (w2 : Fin 128 → Fin 128 → EReal) (b2 : Fin 128 → EReal)
    (w3 : Fin 128 → Fin 128 → EReal) (b3 : Fin 128 → EReal)
    (w4 : Fin 128 → Fin 128 → EReal) (b4 : Fin 128 → EReal)
    (w5 : Fin 128 → EReal) (b5 : EReal) :
    probRow row w1 b1 w2 b2 w3 b3 w4 b4 w5 b5 = probRow row' w1 b1 w2 b2 w3 b3 w4 b4 w5 b5 := by
  rw [show row = row' from funext h]

end Cert.Spec

end
-- ==== Proof.ValueIdeal.lean ====
/-
  The output array of the idealized kernel after its run, as one function of the arrays its windows stage.

  Point `t` writes back the columns `5120·t …` of the output, cut at 50000; column `n` holds, in every row, the
  probability of node `n`, computed from row `n` of the node array and the staged weights and biases.  The ten
  column ranges cover the array, so after the run the array is that function everywhere.
-/
import proofs.«176911_j83107617178205_2_alg».proof.Proof.FrameIdeal
import proofs.«176911_j83107617178205_2_alg».proof.Proof.Spec
import Idealize.ShloMosaic.Lib.Pipeline.Value
import Idealize.ShloMosaic.Lib.ValueIdx

set_option maxRecDepth 16384

noncomputable section

namespace Cert.KernelIdeal.OutValue

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The output array after the run, index by index -/

/-- THE BODY'S ARITHMETIC AT AN INDEX, assumed here and proved where the payload is read: entry `(b, q)` of the stored
    value is the probability of the node in row `q` of the node block. -/
def BlockApply : Prop :=
  ∀ (x0 : Vec Ideal S5120x128 .f32) (x1 : Vec Ideal S128x128 .bf16) (x2 : Vec Ideal S1x128 .f32) (x3 : Vec Ideal S128x128 .bf16)
    (x4 : Vec Ideal S1x128 .f32) (x5 : Vec Ideal S128x128 .bf16) (x6 : Vec Ideal S1x128 .f32) (x7 : Vec Ideal S128x128 .bf16)
    (x8 : Vec Ideal S1x128 .f32) (x9 : Vec Ideal S1x128 .bf16) (x10 : Vec Ideal S1x1 .f32) (b : Fin 256) (q : Fin 5120),
    payload x0 x1 x2 x3 x4 x5 x6 x7 x8 x9 x10 (ix2 b q)
      = Cert.Spec.probRow (fun k => x0 (ix2 q k)) (fun k j => x1 (ix2 k j)) (fun j => x2 (ix2 0 j)) (fun k j => x3 (ix2 k j)) (fun j => x4 (ix2 0 j))
          (fun k j => x5 (ix2 k j)) (fun j => x6 (ix2 0 j)) (fun k j => x7 (ix2 k j)) (fun j => x8 (ix2 0 j)) (fun k => x9 (ix2 0 k)) (x10 (ix2 0 0))

/-- Then a column of the stored value depends on the node block through its own row only. -/
theorem rowLocal_of (h : BlockApply) : Exact.RowLocal Ideal :=
  fun x0 x0' x1 x2 x3 x4 x5 x6 x7 x8 x9 x10 b q hrow => by
    rw [h, h]
    exact Cert.Spec.probRow_congr hrow _ _ _ _ _ _ _ _ _ _

/-- Every node's probability, down the 256 rows: the output array as one function of the arrays the windows stage. -/
def probArr (z : S50000x128.Idx → Elt Ideal .f32) (w1 : S128x128.Idx → Elt Ideal .bf16) (b1 : S1x128.Idx → Elt Ideal .f32)
    (w2 : S128x128.Idx → Elt Ideal .bf16) (b2 : S1x128.Idx → Elt Ideal .f32) (w3 : S128x128.Idx → Elt Ideal .bf16) (b3 : S1x128.Idx → Elt Ideal .f32)
    (w4 : S128x128.Idx → Elt Ideal .bf16) (b4 : S1x128.Idx → Elt Ideal .f32) (w5 : S1x128.Idx → Elt Ideal .bf16) (b5 : S1x1.Idx → Elt Ideal .f32) :
    S256x50000.Idx → Elt Ideal .f32 :=
  fun i => Cert.Spec.probRow (fun k => z (ix2 (i 1) k)) (fun k j => w1 (ix2 k j)) (fun j => b1 (ix2 0 j)) (fun k j => w2 (ix2 k j)) (fun j => b2 (ix2 0 j))
    (fun k j => w3 (ix2 k j)) (fun j => b3 (ix2 0 j)) (fun k j => w4 (ix2 k j)) (fun j => b4 (ix2 0 j)) (fun k => w5 (ix2 0 k)) (b5 (ix2 0 0))

/-- The printed index maps, decided over the grid: the node block at point `t` starts at the row where the output block starts
    along the columns; the weights and biases are staged whole at every point; the output's blocks are the ten column
    ranges of 5120, the last cut at 50000. -/
theorem idx_facts : ∀ t : Fin cfg0.N, win0_0.index t (0 : Fin 2) = win0_11.index t (1 : Fin 2) ∧ win0_0.index t (1 : Fin 2) = 0
    ∧ win0_11.index t (0 : Fin 2) = 0 ∧ win0_11.index t (1 : Fin 2) = t.val
    ∧ win0_11.xsize (grid0.coords t) 0 = 256
    ∧ win0_11.index t (1 : Fin 2) * 5120 + win0_11.xsize (grid0.coords t) 1 = min (t.val * 5120 + 5120) 50000
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Window 1's block at every point is the whole of its array. -/
theorem iblk1_apply (c : Dev nD) (t : Fin cfg0.N) (p : Fin 128) (r : Fin 128) :
    iblk m c 1 t (ix2 p r) = V m c main_v0 (ix2 p r) := by
  obtain ⟨-, -, -, -, -, -, e0, e1, -, -, -, -, -, -, -, -, -, -, -, -, -, -, -, -, -, -⟩ := idx_facts t
  unfold iblk
  rw [View.read_apply]
  refine congrArg (V m c main_v0) (funext fun a => Fin.ext ?_)
  match a with
  | ⟨0, _⟩ => show win0_1.index t (0 : Fin 2) * 128 + 1 * p.val = p.val; rw [e0]; omega
  | ⟨1, _⟩ => show win0_1.index t (1 : Fin 2) * 128 + 1 * r.val = r.val; rw [e1]; omega

/-- Window 2's block at every point is the whole of its array. -/
theorem iblk2_apply (c : Dev nD) (t : Fin cfg0.N) (p : Fin 1) (r : Fin 128) :
    iblk m c 2 t (ix2 p r) = V m c main_v6 (ix2 p r) := by
  obtain ⟨-, -, -, -, -, -, -, -, e0, e1, -, -, -, -, -, -, -, -, -, -, -, -, -, -, -, -⟩ := idx_facts t
  unfold iblk
  rw [View.read_apply]
  refine congrArg (V m c main_v6) (funext fun a => Fin.ext ?_)
  match a with
  | ⟨0, _⟩ => show win0_2.index t (0 : Fin 2) * 1 + 1 * p.val = p.val; rw [e0]; omega
  | ⟨1, _⟩ => show win0_2.index t (1 : Fin 2) * 128 + 1 * r.val = r.val; rw [e1]; omega

/-- Window 3's block at every point is the whole of its array. -/
theorem iblk3_apply (c : Dev nD) (t : Fin cfg0.N) (p : Fin 128) (r : Fin 128) :
    iblk m c 3 t (ix2 p r) = V m c main_v1 (ix2 p r) := by
  obtain ⟨-, -, -, -, -, -, -, -, -, -, e0, e1, -, -, -, -, -, -, -, -, -, -, -, -, -, -⟩ := idx_facts t
  unfold iblk
  rw [View.read_apply]
  refine congrArg (V m c main_v1) (funext fun a => Fin.ext ?_)
  match a with
  | ⟨0, _⟩ => show win0_3.index t (0 : Fin 2) * 128 + 1 * p.val = p.val; rw [e0]; omega
  | ⟨1, _⟩ => show win0_3.index t (1 : Fin 2) * 128 + 1 * r.val = r.val; rw [e1]; omega

/-- Window 4's block at every point is the whole of its array. -/
theorem iblk4_apply (c : Dev nD) (t : Fin cfg0.N) (p : Fin 1) (r : Fin 128) :
    iblk m c 4 t (ix2 p r) = V m c main_v7 (ix2 p r) := by
  obtain ⟨-, -, -, -, -, -, -, -, -, -, -, -, e0, e1, -, -, -, -, -, -, -, -, -, -, -, -⟩ := idx_facts t
  unfold iblk
  rw [View.read_apply]
  refine congrArg (V m c main_v7) (funext fun a => Fin.ext ?_)
  match a with
  | ⟨0, _⟩ => show win0_4.index t (0 : Fin 2) * 1 + 1 * p.val = p.val; rw [e0]; omega
  | ⟨1, _⟩ => show win0_4.index t (1 : Fin 2) * 128 + 1 * r.val = r.val; rw [e1]; omega

/-- Window 5's block at every point is the whole of its array. -/
theorem iblk5_apply (c : Dev nD) (t : Fin cfg0.N) (p : Fin 128) (r : Fin 128) :
    iblk m c 5 t (ix2 p r) = V m c main_v2 (ix2 p r) := by
  obtain ⟨-, -, -, -, -, -, -, -, -, -, -, -, -, -, e0, e1, -, -, -, -, -, -, -, -, -, -⟩ := idx_facts t
  unfold iblk
  rw [View.read_apply]
  refine congrArg (V m c main_v2) (funext fun a => Fin.ext ?_)
  match a with
  | ⟨0, _⟩ => show win0_5.index t (0 : Fin 2) * 128 + 1 * p.val = p.val; rw [e0]; omega
  | ⟨1, _⟩ => show win0_5.index t (1 : Fin 2) * 128 + 1 * r.val = r.val; rw [e1]; omega

/-- Window 6's block at every point is the whole of its array. -/
theorem iblk6_apply (c : Dev nD) (t : Fin cfg0.N) (p : Fin 1) (r : Fin 128) :
    iblk m c 6 t (ix2 p r) = V m c main_v8 (ix2 p r) := by
  obtain ⟨-, -, -, -, -, -, -, -, -, -, -, -, -, -, -, -, e0, e1, -, -, -, -, -, -, -, -⟩ := idx_facts t
  unfold iblk
  rw [View.read_apply]
  refine congrArg (V m c main_v8) (funext fun a => Fin.ext ?_)
  match a with
  | ⟨0, _⟩ => show win0_6.index t (0 : Fin 2) * 1 + 1 * p.val = p.val; rw [e0]; omega
  | ⟨1, _⟩ => show win0_6.index t (1 : Fin 2) * 128 + 1 * r.val = r.val; rw [e1]; omega

/-- Window 7's block at every point is the whole of its array. -/
theorem iblk7_apply (c : Dev nD) (t : Fin cfg0.N) (p : Fin 128) (r : Fin 128) :
    iblk m c 7 t (ix2 p r) = V m c main_v3 (ix2 p r) := by
  obtain ⟨-, -, -, -, -, -, -, -, -, -, -, -, -, -, -, -, -, -, e0, e1, -, -, -, -, -, -⟩ := idx_facts t
  unfold iblk
  rw [View.read_apply]
  refine congrArg (V m c main_v3) (funext fun a => Fin.ext ?_)
  match a with
  | ⟨0, _⟩ => show win0_7.index t (0 : Fin 2) * 128 + 1 * p.val = p.val; rw [e0]; omega
  | ⟨1, _⟩ => show win0_7.index t (1 : Fin 2) * 128 + 1 * r.val = r.val; rw [e1]; omega

/-- Window 8's block at every point is the whole of its array. -/
theorem iblk8_apply (c : Dev nD) (t : Fin cfg0.N) (p : Fin 1) (r : Fin 128) :
    iblk m c 8 t (ix2 p r) = V m c main_v9 (ix2 p r) := by
  obtain ⟨-, -, -, -, -, -, -, -, -, -, -, -, -, -, -, -, -, -, -, -, e0, e1, -, -, -, -⟩ := idx_facts t
  unfold iblk
  rw [View.read_apply]
  refine congrArg (V m c main_v9) (funext fun a => Fin.ext ?_)
  match a with
  | ⟨0, _⟩ => show win0_8.index t (0 : Fin 2) * 1 + 1 * p.val = p.val; rw [e0]; omega
  | ⟨1, _⟩ => show win0_8.index t (1 : Fin 2) * 128 + 1 * r.val = r.val; rw [e1]; omega

/-- Window 9's block at every point is the whole of its array. -/
theorem iblk9_apply (c : Dev nD) (t : Fin cfg0.N) (p : Fin 1) (r : Fin 128) :
    iblk m c 9 t (ix2 p r) = V m c main_v5 (ix2 p r) := by
  obtain ⟨-, -, -, -, -, -, -, -, -, -, -, -, -, -, -, -, -, -, -, -, -, -, e0, e1, -, -⟩ := idx_facts t
  unfold iblk
  rw [View.read_apply]
  refine congrArg (V m c main_v5) (funext fun a => Fin.ext ?_)
  match a with
  | ⟨0, _⟩ => show win0_9.index t (0 : Fin 2) * 1 + 1 * p.val = p.val; rw [e0]; omega
  | ⟨1, _⟩ => show win0_9.index t (1 : Fin 2) * 128 + 1 * r.val = r.val; rw [e1]; omega

/-- Window 10's block at every point is the whole of its array. -/
theorem iblk10_apply (c : Dev nD) (t : Fin cfg0.N) (p : Fin 1) (r : Fin 1) :
    iblk m c 10 t (ix2 p r) = V m c main_v10 (ix2 p r) := by
  obtain ⟨-, -, -, -, -, -, -, -, -, -, -, -, -, -, -, -, -, -, -, -, -, -, -, -, e0, e1⟩ := idx_facts t
  unfold iblk
  rw [View.read_apply]
  refine congrArg (V m c main_v10) (funext fun a => Fin.ext ?_)
  match a with
  | ⟨0, _⟩ => show win0_10.index t (0 : Fin 2) * 1 + 1 * p.val = p.val; rw [e0]; omega
  | ⟨1, _⟩ => show win0_10.index t (1 : Fin 2) * 1 + 1 * r.val = r.val; rw [e1]; omega

set_option maxHeartbeats 1000000 in
/-- WHAT POINT `t` WRITES BACK is block `t` of `probArr` of the arrays as the region finds them. -/
theorem flushed11_eq (hB : BlockApply) (c : Dev nD) (t : Fin cfg0.N) :
    (Exact.dats m 0 c).flushed 11 t = ((cfg0.win 11).blk t).view.read (Elt Ideal)
      (probArr (V m c main_arg0) (V m c main_v0) (V m c main_v6) (V m c main_v1) (V m c main_v7) (V m c main_v2) (V m c main_v8)
        (V m c main_v3) (V m c main_v9) (V m c main_v5) (V m c main_v10)) := by
  show (cfg0.win 11).cut (grid0.coords t) ((Exact.dats m 0 c).after 11 t) = _
  rw [Exact.after0_11, outBlock_eq]
  funext j
  obtain ⟨b, q, hbq⟩ : ∃ (b : Fin 256) (q : Fin 5120), (cfg0.win 11).xinj (grid0.coords t) j = ix2 b q :=
    ⟨((cfg0.win 11).xinj (grid0.coords t) j) 0, ((cfg0.win 11).xinj (grid0.coords t) j) 1, eq_ix2 _⟩
  have hq1 : q.val = (j 1).val := (congrArg Fin.val (congrFun hbq 1)).symm
  rw [View.read_apply]
  refine (congrArg (payload _ _ _ _ _ _ _ _ _ _ _) hbq).trans ?_
  rw [hB]
  unfold probArr
  obtain ⟨e0, e1, e2, e3, e4, e5, -⟩ := idx_facts t
  have hq : q.val < win0_0.xsize (grid0.coords t) 0 := by
    rw [hq1, ← (Exact.clip_facts t).1]; exact (j 1).isLt
  have hrow : (fun k : Fin 128 => Exact.nodes m c t (ix2 q k))
      = fun k : Fin 128 => V m c main_arg0 (ix2 ((((cfg0.win 11).blk t).view.emb j) 1) k) := funext fun k => by
    have hm : win0_0.moved (grid0.coords t) (ix2 q k) = true :=
      (win0_0.moved_iff _ _).mpr fun a => by
        match a with
        | ⟨0, _⟩ => show q.val < win0_0.xsize (grid0.coords t) 0; exact hq
        | ⟨1, _⟩ => show k.val < win0_0.xsize (grid0.coords t) 1; rw [(Exact.clip_facts t).2]; exact k.isLt
    unfold Exact.nodes Window.fill
    rw [dif_pos hm]
    unfold iblk
    rw [View.read_apply]
    refine congrArg (V m c main_arg0) (funext fun a => Fin.ext ?_)
    match a with
    | ⟨0, _⟩ => show win0_0.index t (0 : Fin 2) * 5120 + 1 * q.val = win0_11.index t (1 : Fin 2) * 5120 + 1 * (j 1).val; rw [e0, hq1]
    | ⟨1, _⟩ => show win0_0.index t (1 : Fin 2) * 128 + 1 * k.val = k.val; rw [e1]; omega
  rw [hrow]
  simp only [iblk1_apply, iblk2_apply, iblk3_apply, iblk4_apply, iblk5_apply, iblk6_apply, iblk7_apply, iblk8_apply, iblk9_apply, iblk10_apply]
  exact (cast_eq _ _).symm

/-- An index of the output array is in point `t`'s block iff each coordinate is in the block's range, cut at the array's end. -/
theorem mem_blk11 (t : Fin cfg0.N) (i : S256x50000.Idx) :
    i ∈ ((cfg0.win 11).blk t).view.set ↔ ∀ a : Fin 2, win0_11.index t a * S256x5120.size a ≤ (i a).val
      ∧ (i a).val < win0_11.index t a * S256x5120.size a + win0_11.xsize (grid0.coords t) a := by
  show i ∈ ((View.whole main_v11).slice (win0_11.rect t)).set ↔ _
  rw [View.set_slice_whole, Rect.mem_set_unit]
  exact Iff.rfl

/-- The ten column ranges cover the array. -/
theorem cover11 (i : S256x50000.Idx) : ∃ t : Fin cfg0.N, (cfg0.win 11).flush t = true ∧ i ∈ ((cfg0.win 11).blk t).view.set := by
  have hi0 : (i 0).val < 256 := (i 0).isLt
  have hi1 : (i 1).val < 50000 := (i 1).isLt
  have ht : (i 1).val / 5120 < 10 := by omega
  refine ⟨⟨(i 1).val / 5120, ht⟩, flush0_11 _, ?_⟩
  rw [mem_blk11]
  obtain ⟨-, -, e2, e3, e4, e5, -⟩ := idx_facts ⟨(i 1).val / 5120, ht⟩
  intro a
  match a with
  | ⟨0, _⟩ =>
    show win0_11.index _ (0 : Fin 2) * 256 ≤ (i 0).val ∧ (i 0).val < win0_11.index _ (0 : Fin 2) * 256 + win0_11.xsize _ 0
    rw [e2, e4]; omega
  | ⟨1, _⟩ =>
    show win0_11.index _ (1 : Fin 2) * 5120 ≤ (i 1).val ∧ (i 1).val < win0_11.index _ (1 : Fin 2) * 5120 + win0_11.xsize _ 1
    rw [e5, e3]
    show (i 1).val / 5120 * 5120 ≤ (i 1).val ∧ (i 1).val < min ((i 1).val / 5120 * 5120 + 5120) 50000
    omega

/-- THE OUTPUT ARRAY after the run. -/
theorem final11 (hB : BlockApply) (c : Dev nD) :
    (Exact.dats m 0 c).arrAt 11 cfg0.N
      = probArr (V m c main_arg0) (V m c main_v0) (V m c main_v6) (V m c main_v1) (V m c main_v7) (V m c main_v2) (V m c main_v8)
          (V m c main_v3) (V m c main_v9) (V m c main_v5) (V m c main_v10) :=
  (Exact.dats m 0 c).arrAt_eq_of_cover 11 _ (fun t _ => flushed11_eq m hB c t) cover11

end Cert.KernelIdeal.OutValue

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.BodyValue.lean ====
/-
  The arithmetic of the kernel's body at one output index, on the extended reals.

  The body takes a block of 5120 node rows of 128 features, four 128 x 128 weight matrices with their bias rows, a
  last weight row and a last bias.  It forms, four times over, the product of the current block with a weight matrix
  plus the bias row, followed by the leaky rectifier; then the inner product of every row of the fourth result with
  the last weight row, plus the last bias; then the logistic function; and it copies the resulting row of 5120
  numbers to each of 256 output rows.  On the extended reals the changes of number format are the identity and every
  operation is exact, so the entry at output row `b`, column `q` is the probability the shared specification assigns
  to node row `q` of the block: it does not depend on `b`, and it depends on the block only through its row `q`.

  The proof names the three pieces of the body as functions of whole arrays (the affine part of a layer, the
  rectifier, the tail), reads each at an index, identifies the printed body with their composition by unfolding, and
  chains the layer lemma four times.
-/
import proofs.«176911_j83107617178205_2_alg».proof.Proof.Gen.KernelIdeal.Skeleton
import proofs.«176911_j83107617178205_2_alg».proof.Proof.Spec
import proofs.«176911_j83107617178205_2_alg».proof.Proof.LibMatmulRead
import proofs.«176911_j83107617178205_2_alg».proof.Proof.LibMatmulRowsRead
import Idealize.ShloMosaic.Lib.ValueLayout

noncomputable section

namespace Cert.KernelIdeal.BodyValue

open Idealize.ShloMosaic Idealize.ShloMosaic.ValueIdx Cert.KernelIdeal Cert.KernelIdeal.Facts₀

/-- The affine part of one dense layer on a block of rows. -/
def pre (x : FVec Ideal S5120x128 .f32) (w : FVec Ideal S128x128 .bf16) (b : FVec Ideal S1x128 .f32) :
    FVec Ideal S5120x128 .f32 :=
  addf (matmul dot_S5120x128_S128x128_S5120x128_1_0_0_1_n_n none (truncf .bf16 x bitsLt_bf16_f32)
          (shapeCast S128x128 w shapeCasts_S128x128_S128x128) (constant (F := Ideal) S5120x128 .f32 0x00000000#32))
       (broadcastTo S5120x128 (shapeCast S1x128 b shapeCasts_S1x128_S1x128) broadcasts_S1x128_S5120x128)

/-- The leaky rectifier applied entry by entry. -/
def act (a : FVec Ideal S5120x128 .f32) : FVec Ideal S5120x128 .f32 :=
  select (cmpf .oge a (broadcast S5120x128 (Scalar.ofBits .f32 0x00000000#32))) a
    (mulf (broadcast S5120x128 (Scalar.ofBits .f32 0x3C23D70A#32)) a)

/-- The affine part read at row `q`, column `j`: the inner product of row `q` with column `j` of the weights, plus
    the bias at `j`. -/
theorem pre_apply (x : FVec Ideal S5120x128 .f32) (w : FVec Ideal S128x128 .bf16) (b : FVec Ideal S1x128 .f32)
    (q : Fin 5120) (j : Fin 128) :
    pre x w b (ix2 q j) = (∑ k : Fin 128, x (ix2 q k) * w (ix2 k j)) + b (ix2 (0 : Fin 1) j) := by
  unfold pre
  rw [addf_apply, shapeCast_self, shapeCast_self]
  refine congrArg₂ (· + ·) ?_ ?_
  · exact matmul_ix2_apply _ rfl rfl rfl rfl rfl rfl none _ _ q j
  · exact broadcastTo_1b_ab_apply _ _ q j

/-- The rectifier read at an index is the specification's rectifier of the entry. -/
theorem act_apply (a : FVec Ideal S5120x128 .f32) (i : S5120x128.Idx) : act a i = Cert.Spec.lrelu (a i) := by
  unfold act Cert.Spec.lrelu
  rw [select_apply, cmpf_apply, mulf_apply, broadcast_apply, broadcast_apply]
  rfl

/-- The body's third pre-activation is three affine parts with two rectifiers between them. -/
theorem pay2_eq (x0 : Vec Ideal S5120x128 .f32) (x1 : Vec Ideal S128x128 .bf16) (x2 : Vec Ideal S1x128 .f32)
    (x3 : Vec Ideal S128x128 .bf16) (x4 : Vec Ideal S1x128 .f32) (x5 : Vec Ideal S128x128 .bf16) (x6 : Vec Ideal S1x128 .f32) :
    Cert.KernelIdeal.Gen.k0_pay2 x0 x1 x2 x3 x4 x5 x6 = pre (act (pre (act (pre x0 x1 x2)) x3 x4)) x5 x6 := rfl

/-- The body's third comparison mask compares the third pre-activation with the zero word. -/
theorem pay3_eq (x0 : Vec Ideal S5120x128 .f32) (x1 : Vec Ideal S128x128 .bf16) (x2 : Vec Ideal S1x128 .f32)
    (x3 : Vec Ideal S128x128 .bf16) (x4 : Vec Ideal S1x128 .f32) (x5 : Vec Ideal S128x128 .bf16) (x6 : Vec Ideal S1x128 .f32) :
    Cert.KernelIdeal.Gen.k0_pay3 x0 x1 x2 x3 x4 x5 x6
      = cmpf .oge (Cert.KernelIdeal.Gen.k0_pay2 x0 x1 x2 x3 x4 x5 x6) (broadcast S5120x128 (Scalar.ofBits .f32 0x00000000#32)) := rfl

/-- The tail of the body: the last affine map to one number per row, the logistic function, and the copy to every
    output row. -/
def tail (h : FVec Ideal S5120x128 .f32) (w : FVec Ideal S1x128 .bf16) (b : FVec Ideal S1x1 .f32) : FVec Ideal S256x5120 .f32 :=
  broadcastTo S256x5120
    (shapeCast S1x5120
      (logistic
        (addf
          (matmul dot_S1x128_S5120x128_S1x5120_1_1_0_0_n_n none (shapeCast S1x128 w shapeCasts_S1x128_S1x128)
            (truncf .bf16 h bitsLt_bf16_f32) (constant (F := Ideal) S1x5120 .f32 0x00000000#32))
          (broadcastTo S1x5120 (shapeCast S1x1 b shapeCasts_S1x1_S1x1) broadcasts_S1x1_S1x5120)))
      shapeCasts_S1x5120_S1x5120)
    broadcasts_S1x5120_S256x5120

/-- The rest of the body, given the third pre-activation and its mask: the third rectifier, the fourth layer, the
    tail. -/
theorem pay1_eq (v34 : FVec Ideal S5120x128 .f32) (x7 : Vec Ideal S128x128 .bf16) (x8 : Vec Ideal S1x128 .f32)
    (x9 : Vec Ideal S1x128 .bf16) (x10 : Vec Ideal S1x1 .f32) :
    Cert.KernelIdeal.Gen.k0_pay1 v34 (cmpf .oge v34 (broadcast S5120x128 (Scalar.ofBits .f32 0x00000000#32))) x7 x8 x9 x10
      = tail (act (pre (act v34) x7 x8)) x9 x10 := rfl

/-- A `[1, 1]` array broadcast to `[1, b]` reads its one entry everywhere. -/
theorem broadcastTo_11_1b_apply {α : Type} {b : ℕ} (v : (⟨2, ![1, 1]⟩ : Shape).Idx → α)
    (h : (⟨2, ![1, 1]⟩ : Shape).Broadcasts ⟨2, ![1, b]⟩) (p : Fin 1) (c : Fin b) :
    broadcastTo ⟨2, ![1, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The logistic function applied entry by entry. -/
theorem logistic_apply {s : Shape} {φ : FTy} (v : FVec Ideal s φ) (i : s.Idx) :
    logistic v i = Ideal.logistic (v i) := rfl

/-- The tail read at output row `r`, column `q`: the logistic function of the inner product of the last weight row
    with row `q`, plus the last bias. -/
theorem tail_apply (h : FVec Ideal S5120x128 .f32) (w : FVec Ideal S1x128 .bf16) (b : FVec Ideal S1x1 .f32)
    (r : Fin 256) (q : Fin 5120) :
    tail h w b (ix2 r q)
      = Ideal.logistic ((∑ k : Fin 128, w (ix2 (0 : Fin 1) k) * h (ix2 q k)) + b (ix2 (0 : Fin 1) (0 : Fin 1))) := by
  unfold tail
  rw [broadcastTo_1b_ab_apply]
  simp only [shapeCast_self]
  rw [logistic_apply, addf_apply]
  refine congrArg Ideal.logistic (congrArg₂ (· + ·) ?_ ?_)
  · exact matmul_rows_ix2_apply _ rfl rfl rfl rfl rfl rfl none _ _ 0 q
  · exact broadcastTo_11_1b_apply _ _ 0 q

/-- One dense layer of the body, read at row `q`, column `j`, given the row of its input. -/
theorem hidden_apply (x : FVec Ideal S5120x128 .f32) (w : FVec Ideal S128x128 .bf16) (b : FVec Ideal S1x128 .f32)
    (q : Fin 5120) (row : Fin 128 → EReal) (hrow : ∀ k, x (ix2 q k) = row k) (j : Fin 128) :
    act (pre x w b) (ix2 q j)
      = Cert.Spec.layer row (fun k j => w (ix2 k j)) (fun j => b (ix2 (0 : Fin 1) j)) j := by
  rw [act_apply, pre_apply]
  exact congrArg (fun s => Cert.Spec.lrelu (s + b (ix2 (0 : Fin 1) j)))
    (Finset.sum_congr rfl fun k _ => congrArg (· * w (ix2 k j)) (hrow k))

/-- The body's stored value at output row `b`, column `q` is the specification's probability of node row `q`. -/
theorem block_apply (x0 : Vec Ideal S5120x128 .f32) (x1 : Vec Ideal S128x128 .bf16) (x2 : Vec Ideal S1x128 .f32)
    (x3 : Vec Ideal S128x128 .bf16) (x4 : Vec Ideal S1x128 .f32) (x5 : Vec Ideal S128x128 .bf16) (x6 : Vec Ideal S1x128 .f32)
    (x7 : Vec Ideal S128x128 .bf16) (x8 : Vec Ideal S1x128 .f32) (x9 : Vec Ideal S1x128 .bf16) (x10 : Vec Ideal S1x1 .f32)
    (b : Fin 256) (q : Fin 5120) :
    Cert.KernelIdeal.Gen.k0_pay1 (Cert.KernelIdeal.Gen.k0_pay2 x0 x1 x2 x3 x4 x5 x6)
        (Cert.KernelIdeal.Gen.k0_pay3 x0 x1 x2 x3 x4 x5 x6) x7 x8 x9 x10 (ix2 b q)
      = Cert.Spec.probRow (fun k => x0 (ix2 q k)) (fun k j => x1 (ix2 k j)) (fun j => x2 (ix2 0 j))
          (fun k j => x3 (ix2 k j)) (fun j => x4 (ix2 0 j)) (fun k j => x5 (ix2 k j)) (fun j => x6 (ix2 0 j))
          (fun k j => x7 (ix2 k j)) (fun j => x8 (ix2 0 j)) (fun k => x9 (ix2 0 k)) (x10 (ix2 0 0)) := by
  rw [pay3_eq, pay1_eq, pay2_eq, tail_apply]
  unfold Cert.Spec.probRow Cert.Spec.logit
  refine congrArg Ideal.logistic (congrArg (· + x10 (ix2 0 0)) (Finset.sum_congr rfl fun k _ => ?_))
  rw [mul_comm]
  refine congrArg (· * x9 (ix2 0 k)) ?_
  exact hidden_apply _ x7 x8 q _ (fun k => hidden_apply _ x5 x6 q _ (fun k => hidden_apply _ x3 x4 q _
    (fun k => hidden_apply x0 x1 x2 q _ (fun _ => rfl) k) k) k) k

/-- The entry at column `q` depends on the block of node rows only through its row `q`. -/
theorem block_row_local (x0 x0' : Vec Ideal S5120x128 .f32) (x1 : Vec Ideal S128x128 .bf16) (x2 : Vec Ideal S1x128 .f32)
    (x3 : Vec Ideal S128x128 .bf16) (x4 : Vec Ideal S1x128 .f32) (x5 : Vec Ideal S128x128 .bf16) (x6 : Vec Ideal S1x128 .f32)
    (x7 : Vec Ideal S128x128 .bf16) (x8 : Vec Ideal S1x128 .f32) (x9 : Vec Ideal S1x128 .bf16) (x10 : Vec Ideal S1x1 .f32)
    (b : Fin 256) (q : Fin 5120) (h : ∀ k : Fin 128, x0 (ix2 q k) = x0' (ix2 q k)) :
    Cert.KernelIdeal.Gen.k0_pay1 (Cert.KernelIdeal.Gen.k0_pay2 x0 x1 x2 x3 x4 x5 x6)
        (Cert.KernelIdeal.Gen.k0_pay3 x0 x1 x2 x3 x4 x5 x6) x7 x8 x9 x10 (ix2 b q)
      = Cert.KernelIdeal.Gen.k0_pay1 (Cert.KernelIdeal.Gen.k0_pay2 x0' x1 x2 x3 x4 x5 x6)
          (Cert.KernelIdeal.Gen.k0_pay3 x0' x1 x2 x3 x4 x5 x6) x7 x8 x9 x10 (ix2 b q) := by
  rw [block_apply, block_apply]
  exact Cert.Spec.probRow_congr h _ _ _ _ _ _ _ _ _ _

end Cert.KernelIdeal.BodyValue

end
-- ==== Proof.KernelRun.lean ====
/-
  The idealized kernel's run with its two results named.

  The first result, the output array of the region, ends at every node's probability down the 256 rows, as a
  function of the arrays the windows stage; the second is what the host lines after the region compute; the
  eighteen argument arrays end unchanged.
-/
import proofs.«176911_j83107617178205_2_alg».proof.Proof.ValueIdeal
import proofs.«176911_j83107617178205_2_alg».proof.Proof.BodyValue
import Idealize.ShloMosaic.Lib.Pipeline.Value
import Idealize.ShloMosaic.Lib.ValueIdx

set_option maxRecDepth 16384

noncomputable section

namespace Cert.KernelIdeal.OutValue

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The body's arithmetic at an index, read off the payload. -/
theorem blockApply : BlockApply := fun x0 x1 x2 x3 x4 x5 x6 x7 x8 x9 x10 b q => by
  unfold payload
  exact Cert.KernelIdeal.BodyValue.block_apply x0 x1 x2 x3 x4 x5 x6 x7 x8 x9 x10 b q

/-- Every weakly fair execution of @main terminates without a fault; the region's output array ends at `probArr` of the
    staged arrays, the second result at what the host lines after the region compute, the arguments as launched. -/
theorem run : θ_run defs (onTc (τ := τ) (main (F := Ideal))) ⟨m, fun _ => 0, ρ⟩ (fun r => ∀ c : Dev nD,
      r.2.mem ((c.tc : Thread nD τ).loc main_v11)
        = probArr (V m c main_arg0) (V m c main_v0) (V m c main_v6) (V m c main_v1) (V m c main_v7) (V m c main_v2) (V m c main_v8)
            (V m c main_v3) (V m c main_v9) (V m c main_v5) (V m c main_v10)
      ∧ r.2.mem ((c.tc : Thread nD τ).loc main_v33)
        = Pipeline.afterTail₀ cfgs (Exact.dats m) 0 (V0 m) [hostOps1, hostOps1_1, hostOps1_2, hostOps1_3, hostOps1_4] c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 11).trans (final11 m blockApply c),
      (h c).2 main_v33 (Pipeline.mem_restRefs_of main_v33 (by decide) (by decide)),
      ((h c).1 0).trans (((Exact.dats m 0 c).arrAt_in 0 rfl _).trans ((Exact.A_eq m c 0).trans (V_main_arg0 m c))),
      (((h c).2 main_arg1 (Pipeline.mem_restRefs_of main_arg1 (by decide) (by decide))).trans (W_main_arg1 m (Exact.dats m) c)),
      (((h c).2 main_arg2 (Pipeline.mem_restRefs_of main_arg2 (by decide) (by decide))).trans (W_main_arg2 m (Exact.dats m) c)),
      (((h c).2 main_arg3 (Pipeline.mem_restRefs_of main_arg3 (by decide) (by decide))).trans (W_main_arg3 m (Exact.dats m) c)),
      (((h c).2 main_arg4 (Pipeline.mem_restRefs_of main_arg4 (by decide) (by decide))).trans (W_main_arg4 m (Exact.dats m) c)),
      (((h c).2 main_arg5 (Pipeline.mem_restRefs_of main_arg5 (by decide) (by decide))).trans (W_main_arg5 m (Exact.dats m) c)),
      (((h c).2 main_arg6 (Pipeline.mem_restRefs_of main_arg6 (by decide) (by decide))).trans (W_main_arg6 m (Exact.dats m) c)),
      (((h c).2 main_arg7 (Pipeline.mem_restRefs_of main_arg7 (by decide) (by decide))).trans (W_main_arg7 m (Exact.dats m) c)),
      (((h c).2 main_arg8 (Pipeline.mem_restRefs_of main_arg8 (by decide) (by decide))).trans (W_main_arg8 m (Exact.dats m) c)),
      (((h c).2 main_arg9 (Pipeline.mem_restRefs_of main_arg9 (by decide) (by decide))).trans (W_main_arg9 m (Exact.dats m) c)),
      (((h c).2 main_arg10 (Pipeline.mem_restRefs_of main_arg10 (by decide) (by decide))).trans (W_main_arg10 m (Exact.dats m) c)),
      (((h c).2 main_arg11 (Pipeline.mem_restRefs_of main_arg11 (by decide) (by decide))).trans (W_main_arg11 m (Exact.dats m) c)),
      (((h c).2 main_arg12 (Pipeline.mem_restRefs_of main_arg12 (by decide) (by decide))).trans (W_main_arg12 m (Exact.dats m) c)),
      (((h c).2 main_arg13 (Pipeline.mem_restRefs_of main_arg13 (by decide) (by decide))).trans (W_main_arg13 m (Exact.dats m) c)),
      (((h c).2 main_arg14 (Pipeline.mem_restRefs_of main_arg14 (by decide) (by decide))).trans (W_main_arg14 m (Exact.dats m) c)),
      (((h c).2 main_arg15 (Pipeline.mem_restRefs_of main_arg15 (by decide) (by decide))).trans (W_main_arg15 m (Exact.dats m) c)),
      (((h c).2 main_arg16 (Pipeline.mem_restRefs_of main_arg16 (by decide) (by decide))).trans (W_main_arg16 m (Exact.dats m) c)),
      (((h c).2 main_arg17 (Pipeline.mem_restRefs_of main_arg17 (by decide) (by decide))).trans (W_main_arg17 m (Exact.dats m) c))⟩)
    (Exact.run_main m ρ (rowLocal_of blockApply))

end Cert.KernelIdeal.OutValue

end
-- ==== Proof.HostPrefix.lean ====
/-
  The host operations before the kernel's one region, at the ideal instance: what they leave in the arrays the
  region's windows stage, read at an index.

  Before the region the program changes the format of the four square weight matrices (on the extended reals a
  change of format is the identity), lays each of the four bias vectors of length 128 out as a 1 x 128 row, turns
  the last weight column (128 x 1) into a row (a transpose, then a change of format), and lays the last bias (one
  number) out as a 1 x 1 array.  So every staged array reads, entry by entry, the corresponding entry of an
  argument array: a matrix at the same index, a row's entry `j` the vector's entry `j`, the transposed column's
  entry `k` the column's entry `k`, the 1 x 1 array's entry the number.
-/
import proofs.«176911_j83107617178205_2_alg».proof.Proof.Gen.KernelIdeal.Frame
import Idealize.ShloMosaic.PureOps.Ideal
import Idealize.ShloMosaic.Lib.ValueIdx
import Idealize.ShloMosaic.Lib.Pipeline.Value
import proofs.«176911_j83107617178205_2_alg».proof.Proof.LibMatmulRead

noncomputable section

namespace Cert.KernelIdeal.HostSide

open Idealize.ShloMosaic Idealize.ShloMosaic.TcCoe Idealize.ShloMosaic.Tactic Idealize.ShloMosaic.ValueIdx
open Cert.KernelIdeal

variable (m : (ℓ : Loc nD τ sig) → Buf (Elt Ideal) ℓ) (c : Dev nD)

/-! ## The four square weight matrices: a change of format -/

/-- Staged matrix 0 is argument 2: a change of format is the identity on the extended reals. -/
theorem V_main_v0 : (Gen.V m c main_v0 : S128x128.Idx → EReal) = (m ((c : Thread nD τ).loc main_arg2) : S128x128.Idx → EReal) := by
  dsimp only [Gen.V, Gen.V0]
  simp only [Gen.hostOps0, List.flatten_cons, List.flatten_nil, List.append_nil, List.cons_append, List.nil_append]
  after_results
  rfl

theorem V_main_v0_apply (k j : Fin 128) :
    (Gen.V m c main_v0 : S128x128.Idx → EReal) (ix2 k j) = (m ((c : Thread nD τ).loc main_arg2) : S128x128.Idx → EReal) (ix2 k j) :=
  congrFun (V_main_v0 m c) _

/-- Staged matrix 1 is argument 4: a change of format is the identity on the extended reals. -/
theorem V_main_v1 : (Gen.V m c main_v1 : S128x128.Idx → EReal) = (m ((c : Thread nD τ).loc main_arg4) : S128x128.Idx → EReal) := by
  dsimp only [Gen.V, Gen.V0]
  simp only [Gen.hostOps0, List.flatten_cons, List.flatten_nil, List.append_nil, List.cons_append, List.nil_append]
  after_results
  rfl

theorem V_main_v1_apply (k j : Fin 128) :
    (Gen.V m c main_v1 : S128x128.Idx → EReal) (ix2 k j) = (m ((c : Thread nD τ).loc main_arg4) : S128x128.Idx → EReal) (ix2 k j) :=
  congrFun (V_main_v1 m c) _

/-- Staged matrix 2 is argument 6: a change of format is the identity on the extended reals. -/
theorem V_main_v2 : (Gen.V m c main_v2 : S128x128.Idx → EReal) = (m ((c : Thread nD τ).loc main_arg6) : S128x128.Idx → EReal) := by
  dsimp only [Gen.V, Gen.V0]
  simp only [Gen.hostOps0, List.flatten_cons, List.flatten_nil, List.append_nil, List.cons_append, List.nil_append]
  after_results
  rfl

theorem V_main_v2_apply (k j : Fin 128) :
    (Gen.V m c main_v2 : S128x128.Idx → EReal) (ix2 k j) = (m ((c : Thread nD τ).loc main_arg6) : S128x128.Idx → EReal) (ix2 k j) :=
  congrFun (V_main_v2 m c) _

/-- Staged matrix 3 is argument 8: a change of format is the identity on the extended reals. -/
theorem V_main_v3 : (Gen.V m c main_v3 : S128x128.Idx → EReal) = (m ((c : Thread nD τ).loc main_arg8) : S128x128.Idx → EReal) := by
  dsimp only [Gen.V, Gen.V0]
  simp only [Gen.hostOps0, List.flatten_cons, List.flatten_nil, List.append_nil, List.cons_append, List.nil_append]
  after_results
  rfl

theorem V_main_v3_apply (k j : Fin 128) :
    (Gen.V m c main_v3 : S128x128.Idx → EReal) (ix2 k j) = (m ((c : Thread nD τ).loc main_arg8) : S128x128.Idx → EReal) (ix2 k j) :=
  congrFun (V_main_v3 m c) _

/-! ## The four bias vectors: laid out as rows -/

/-- A vector of length `n` laid out as a `1 x n` row reads, at `(0, j)`, the vector's entry `j`. -/
theorem row_apply {α : Type} {n : ℕ} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h (ix2 0 j) (ix1 j) ?_
  rw [Shape.rowMajor_val_one, Shape.rowMajor_val_two]
  show j.val = 0 * n + j.val
  omega

/-- Staged row 6 is argument 3 laid out as a row. -/
theorem V_main_v6 : (Gen.V m c main_v6 : S1x128.Idx → EReal)
    = shapeCast S1x128 (m ((c : Thread nD τ).loc main_arg3) : S128.Idx → EReal) Gen.shapeCasts_S128_S1x128 := by
  dsimp only [Gen.V, Gen.V0]
  simp only [Gen.hostOps0, List.flatten_cons, List.flatten_nil, List.append_nil, List.cons_append, List.nil_append]
  after_results
  rfl

theorem V_main_v6_apply (j : Fin 128) :
    (Gen.V m c main_v6 : S1x128.Idx → EReal) (ix2 0 j) = (m ((c : Thread nD τ).loc main_arg3) : S128.Idx → EReal) (ix1 j) := by
  rw [V_main_v6]
  exact row_apply _ _ j

/-- Staged row 7 is argument 5 laid out as a row. -/
theorem V_main_v7 : (Gen.V m c main_v7 : S1x128.Idx → EReal)
    = shapeCast S1x128 (m ((c : Thread nD τ).loc main_arg5) : S128.Idx → EReal) Gen.shapeCasts_S128_S1x128 := by
  dsimp only [Gen.V, Gen.V0]
  simp only [Gen.hostOps0, List.flatten_cons, List.flatten_nil, List.append_nil, List.cons_append, List.nil_append]
  after_results
  rfl

theorem V_main_v7_apply (j : Fin 128) :
    (Gen.V m c main_v7 : S1x128.Idx → EReal) (ix2 0 j) = (m ((c : Thread nD τ).loc main_arg5) : S128.Idx → EReal) (ix1 j) := by
  rw [V_main_v7]
  exact row_apply _ _ j

/-- Staged row 8 is argument 7 laid out as a row. -/
theorem V_main_v8 : (Gen.V m c main_v8 : S1x128.Idx → EReal)
    = shapeCast S1x128 (m ((c : Thread nD τ).loc main_arg7) : S128.Idx → EReal) Gen.shapeCasts_S128_S1x128 := by
  dsimp only [Gen.V, Gen.V0]
  simp only [Gen.hostOps0, List.flatten_cons, List.flatten_nil, List.append_nil, List.cons_append, List.nil_append]
  after_results
  rfl

theorem V_main_v8_apply (j : Fin 128) :
    (Gen.V m c main_v8 : S1x128.Idx → EReal) (ix2 0 j) = (m ((c : Thread nD τ).loc main_arg7) : S128.Idx → EReal) (ix1 j) := by
  rw [V_main_v8]
  exact row_apply _ _ j

/-- Staged row 9 is argument 9 laid out as a row. -/
theorem V_main_v9 : (Gen.V m c main_v9 : S1x128.Idx → EReal)
    = shapeCast S1x128 (m ((c : Thread nD τ).loc main_arg9) : S128.Idx → EReal) Gen.shapeCasts_S128_S1x128 := by
  dsimp only [Gen.V, Gen.V0]
  simp only [Gen.hostOps0, List.flatten_cons, List.flatten_nil, List.append_nil, List.cons_append, List.nil_append]
  after_results
  rfl

theorem V_main_v9_apply (j : Fin 128) :
    (Gen.V m c main_v9 : S1x128.Idx → EReal) (ix2 0 j) = (m ((c : Thread nD τ).loc main_arg9) : S128.Idx → EReal) (ix1 j) := by
  rw [V_main_v9]
  exact row_apply _ _ j

/-! ## The last weight column, as a row; the last bias, as a 1 x 1 array -/

/-- The staged last weights are argument 10 transposed (and changed of format: the identity). -/
theorem V_main_v5 : (Gen.V m c main_v5 : S1x128.Idx → EReal)
    = transpose S1x128 [1, 0] (m ((c : Thread nD τ).loc main_arg10) : S128x1.Idx → EReal) Gen.transposes_S128x1_S1x128_1_0 := by
  dsimp only [Gen.V, Gen.V0]
  simp only [Gen.hostOps0, List.flatten_cons, List.flatten_nil, List.append_nil, List.cons_append, List.nil_append]
  after_results
  rfl

theorem V_main_v5_apply (k : Fin 128) :
    (Gen.V m c main_v5 : S1x128.Idx → EReal) (ix2 0 k) = (m ((c : Thread nD τ).loc main_arg10) : S128x1.Idx → EReal) (ix2 k 0) := by
  rw [V_main_v5]
  exact transpose_ab_ba_apply _ _ 0 k

/-- The staged last bias is argument 11 laid out as a 1 x 1 array. -/
theorem V_main_v10 : (Gen.V m c main_v10 : S1x1.Idx → EReal)
    = shapeCast S1x1 (m ((c : Thread nD τ).loc main_arg11) : S1.Idx → EReal) Gen.shapeCasts_S1_S1x1 := by
  dsimp only [Gen.V, Gen.V0]
  simp only [Gen.hostOps0, List.flatten_cons, List.flatten_nil, List.append_nil, List.cons_append, List.nil_append]
  after_results
  rfl

theorem V_main_v10_apply :
    (Gen.V m c main_v10 : S1x1.Idx → EReal) (ix2 0 0) = (m ((c : Thread nD τ).loc main_arg11) : S1.Idx → EReal) (ix1 0) := by
  rw [V_main_v10]
  exact row_apply _ _ 0

end Cert.KernelIdeal.HostSide

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.HostTail.lean ====
/-
  The host operations after the kernel's one region, at the ideal instance: the second result ("time") as a plain
  function of the argument arrays.

  After the region the program normalises the 256 node indices (an index below zero has the number of rows, 50000,
  added), gathers those rows of the feature array, and passes the gathered 256 x 128 block through two dense layers
  (a matrix product, a bias broadcast over the rows and added, then the leaky rectifier: compare with zero, keep the
  entry where it is at least zero, else the slope constant times it) and a last 128 -> 1 affine map, the column
  flattened to 256 numbers. `timeKer` is that composition, operation by operation in program order; `tail_time`
  says the program's tail leaves exactly it in the result's buffer, whatever the region did to its own arrays: the
  tail reads the feature array (an input window's array, which the region leaves as it found it) and arrays no
  window stages.
-/
import proofs.«176911_j83107617178205_2_alg».proof.Proof.Gen.KernelIdeal.Frame
import Idealize.ShloMosaic.PureOps.Ideal
import proofs.«176911_j83107617178205_2_alg».proof.Proof.LibTypedHEq
import proofs.«176911_j83107617178205_2_alg».proof.Proof.LibTypedRead

noncomputable section

namespace Cert.KernelIdeal.HostSide

open Idealize.ShloMosaic Idealize.ShloMosaic.TcCoe Idealize.ShloMosaic.Tactic
open Idealize.SL Idealize.SL.Sem
open Idealize.ShloMosaic.Pipeline (Dat)
open Cert.KernelIdeal

/-- The "time" result as a function of the feature array `z`, the node indices `u` and the small network's weights
    and biases: the operations after the region, composed in program order. -/
def timeKer
    (z : (⟨S50000x128, .f32⟩ : BufTy).Contents (Elt Ideal))
    (u : (⟨S256, .i32⟩ : BufTy).Contents (Elt Ideal))
    (tw1 : (⟨S128x128, .f32⟩ : BufTy).Contents (Elt Ideal))
    (tb1 : (⟨S128, .f32⟩ : BufTy).Contents (Elt Ideal))
    (tw2 : (⟨S128x128, .f32⟩ : BufTy).Contents (Elt Ideal))
    (tb2 : (⟨S128, .f32⟩ : BufTy).Contents (Elt Ideal))
    (tw3 : (⟨S128x1, .f32⟩ : BufTy).Contents (Elt Ideal))
    (tb3 : (⟨S1, .f32⟩ : BufTy).Contents (Elt Ideal)) :
    (⟨S256, .f32⟩ : BufTy).Contents (Elt Ideal) :=
  -- the indices, a negative one wrapped by the number of rows
  let c : (⟨S_, .i32⟩ : BufTy).Contents (Elt Ideal) := constantI S_ 32 0#32
  let v12 : (⟨S256, .i32⟩ : BufTy).Contents (Elt Ideal) := broadcastInDim S256 ![] Gen.bcast_S_S256 c
  let v13 : (⟨S256, .i1⟩ : BufTy).Contents (Elt Ideal) := cmpi .slt u v12
  let c_0 : (⟨S_, .i32⟩ : BufTy).Contents (Elt Ideal) := constantI S_ 32 50000#32
  let v14 : (⟨S256, .i32⟩ : BufTy).Contents (Elt Ideal) := broadcastInDim S256 ![] Gen.bcast_S_S256 c_0
  let v15 : (⟨S256, .i32⟩ : BufTy).Contents (Elt Ideal) := addi u v14
  let v16 : (⟨S256, .i32⟩ : BufTy).Contents (Elt Ideal) := select v13 v15 u
  let v17 : (⟨S256x1, .i32⟩ : BufTy).Contents (Elt Ideal) := broadcastInDim S256x1 ![0] Gen.bcast_S256_S256x1_0 v16
  -- the gathered rows
  let v18 : (⟨S256x128, .f32⟩ : BufTy).Contents (Elt Ideal) :=
    Host.gather gather_S50000x128_S256x1_S256x128_1_0_n_n_0_1_1128 z v17
  -- the first layer
  let v19 : (⟨S256x128, .f32⟩ : BufTy).Contents (Elt Ideal) :=
    Host.dotGeneral (F := Ideal) (φ₁ := .f32) (φ₂ := .f32) dot_S256x128_S128x128_S256x128_1_0_0_1_n_n none v18 tw1
  let v20 : (⟨S1x128, .f32⟩ : BufTy).Contents (Elt Ideal) := broadcastInDim S1x128 ![1] Gen.bcast_S128_S1x128_1 tb1
  let v21 : (⟨S256x128, .f32⟩ : BufTy).Contents (Elt Ideal) := broadcastInDim S256x128 ![0, 1] Gen.bcast_S1x128_S256x128_0_1 v20
  let v22 : (⟨S256x128, .f32⟩ : BufTy).Contents (Elt Ideal) := addf (F := Ideal) (φ := .f32) v19 v21
  let a_cst : (⟨S_, .f32⟩ : BufTy).Contents (Elt Ideal) := constant (F := Ideal) S_ .f32 0x00000000#32
  let a0 : (⟨S256x128, .f32⟩ : BufTy).Contents (Elt Ideal) := broadcastInDim S256x128 ![] Gen.bcast_S_S256x128 a_cst
  let a1 : (⟨S256x128, .i1⟩ : BufTy).Contents (Elt Ideal) := cmpf (F := Ideal) (φ := .f32) .oge v22 a0
  let a_cst_0 : (⟨S_, .f32⟩ : BufTy).Contents (Elt Ideal) := constant (F := Ideal) S_ .f32 0x3C23D70A#32
  let a2 : (⟨S256x128, .f32⟩ : BufTy).Contents (Elt Ideal) := broadcastInDim S256x128 ![] Gen.bcast_S_S256x128 a_cst_0
  let a3 : (⟨S256x128, .f32⟩ : BufTy).Contents (Elt Ideal) := mulf (F := Ideal) (φ := .f32) a2 v22
  let v23 : (⟨S256x128, .f32⟩ : BufTy).Contents (Elt Ideal) := select a1 v22 a3
  -- the second layer
  let v24 : (⟨S256x128, .f32⟩ : BufTy).Contents (Elt Ideal) :=
    Host.dotGeneral (F := Ideal) (φ₁ := .f32) (φ₂ := .f32) dot_S256x128_S128x128_S256x128_1_0_0_1_n_n none v23 tw2
  let v25 : (⟨S1x128, .f32⟩ : BufTy).Contents (Elt Ideal) := broadcastInDim S1x128 ![1] Gen.bcast_S128_S1x128_1 tb2
  let v26 : (⟨S256x128, .f32⟩ : BufTy).Contents (Elt Ideal) := broadcastInDim S256x128 ![0, 1] Gen.bcast_S1x128_S256x128_0_1 v25
  let v27 : (⟨S256x128, .f32⟩ : BufTy).Contents (Elt Ideal) := addf (F := Ideal) (φ := .f32) v24 v26
  let b_cst : (⟨S_, .f32⟩ : BufTy).Contents (Elt Ideal) := constant (F := Ideal) S_ .f32 0x00000000#32
  let b0 : (⟨S256x128, .f32⟩ : BufTy).Contents (Elt Ideal) := broadcastInDim S256x128 ![] Gen.bcast_S_S256x128 b_cst
  let b1 : (⟨S256x128, .i1⟩ : BufTy).Contents (Elt Ideal) := cmpf (F := Ideal) (φ := .f32) .oge v27 b0
  let b_cst_0 : (⟨S_, .f32⟩ : BufTy).Contents (Elt Ideal) := constant (F := Ideal) S_ .f32 0x3C23D70A#32
  let b2 : (⟨S256x128, .f32⟩ : BufTy).Contents (Elt Ideal) := broadcastInDim S256x128 ![] Gen.bcast_S_S256x128 b_cst_0
  let b3 : (⟨S256x128, .f32⟩ : BufTy).Contents (Elt Ideal) := mulf (F := Ideal) (φ := .f32) b2 v27
  let v28 : (⟨S256x128, .f32⟩ : BufTy).Contents (Elt Ideal) := select b1 v27 b3
  -- the last affine map, the column flattened
  let v29 : (⟨S256x1, .f32⟩ : BufTy).Contents (Elt Ideal) :=
    Host.dotGeneral (F := Ideal) (φ₁ := .f32) (φ₂ := .f32) dot_S256x128_S128x1_S256x1_1_0_0_1_n_n none v28 tw3
  let v30 : (⟨S1x1, .f32⟩ : BufTy).Contents (Elt Ideal) := broadcastInDim S1x1 ![1] Gen.bcast_S1_S1x1_1 tb3
  let v31 : (⟨S256x1, .f32⟩ : BufTy).Contents (Elt Ideal) := broadcastInDim S256x1 ![0, 1] Gen.bcast_S1x1_S256x1_0_1 v30
  let v32 : (⟨S256x1, .f32⟩ : BufTy).Contents (Elt Ideal) := addf (F := Ideal) (φ := .f32) v29 v31
  (shapeCast S256 v32 Gen.shapeCasts_S256x1_S256 : (⟨S256, .f32⟩ : BufTy).Contents (Elt Ideal))

variable (m : (ℓ : Loc nD τ sig) → Buf (Elt Ideal) ℓ)

/-- An argument array that no window stages is, after the region, what the program was launched with: the region
    leaves every buffer that is no window's array as it found it, and no operation before the region writes an
    argument. -/
theorem rest_arg (dats : (p : Fin 1) → (c : Dev nD) → Dat τ (Elt Ideal) Unit ℕ (UR sig nD τ) ℕ (cfgs p) c) (c : Dev nD)
    (b : Ref sig .tc) (hb : ∀ w, Pipeline.arrRef spec0 w ≠ b) (hV : Gen.V m c b = m ((c : Thread nD τ).loc b)) :
    Pipeline.withArrays (cfgs 0).spec c (Gen.V0 m c) (fun w => (dats 0 c).arrAt w (cfgs 0).N) (Proc.devRef .tc b)
      = m ((c : Thread nD τ).loc b) :=
  (Pipeline.withArrays_of_ne _ c (Gen.V0 m c) _ b hb).trans hV

/-- The program's tail leaves `timeKer` of the argument arrays in the second result's buffer.  The feature array is
    input window 0's array, which ends the region holding what it held on entry; the indices, weights and biases
    are no window's array.  With those eight reads rewritten to the launch contents, the fold of the thirty-six
    operations is `timeKer`'s composition term for term (a typed reference's transport at a literal reference is
    the identity by computation). -/
theorem tail_time (dats : (p : Fin 1) → (c : Dev nD) → Dat τ (Elt Ideal) Unit ℕ (UR sig nD τ) ℕ (cfgs p) c)
    (hA : ∀ c w, (dats 0 c).A w = Gen.V m c (Pipeline.arrRef spec0 w)) (c : Dev nD) :
    Pipeline.afterTail₀ cfgs dats 0 (Gen.V0 m) [Gen.hostOps1, Gen.hostOps1_1, Gen.hostOps1_2, Gen.hostOps1_3, Gen.hostOps1_4] c main_v33
      = timeKer (m ((c : Thread nD τ).loc main_arg0)) (m ((c : Thread nD τ).loc main_arg1))
          (m ((c : Thread nD τ).loc main_arg12)) (m ((c : Thread nD τ).loc main_arg13))
          (m ((c : Thread nD τ).loc main_arg14)) (m ((c : Thread nD τ).loc main_arg15))
          (m ((c : Thread nD τ).loc main_arg16)) (m ((c : Thread nD τ).loc main_arg17)) := by
  have h0 : Pipeline.withArrays (cfgs 0).spec c (Gen.V0 m c) (fun w => (dats 0 c).arrAt w (cfgs 0).N) (Proc.devRef .tc main_arg0)
      = m ((c : Thread nD τ).loc main_arg0) :=
    (Pipeline.withArrays_arr spec0 Gen.launch0.win.arr_inj c _ _ 0).trans
      (((dats 0 c).arrAt_in 0 rfl _).trans ((hA c 0).trans (Gen.V_main_arg0 m c)))
  have h1 := rest_arg m dats c main_arg1 (by decide) (Gen.V_main_arg1 m c)
  have h12 := rest_arg m dats c main_arg12 (by decide) (Gen.V_main_arg12 m c)
  have h13 := rest_arg m dats c main_arg13 (by decide) (Gen.V_main_arg13 m c)
  have h14 := rest_arg m dats c main_arg14 (by decide) (Gen.V_main_arg14 m c)
  have h15 := rest_arg m dats c main_arg15 (by decide) (Gen.V_main_arg15 m c)
  have h16 := rest_arg m dats c main_arg16 (by decide) (Gen.V_main_arg16 m c)
  have h17 := rest_arg m dats c main_arg17 (by decide) (Gen.V_main_arg17 m c)
  unfold Pipeline.afterTail₀
  simp only [Gen.hostOps1, Gen.hostOps1_1, Gen.hostOps1_2, Gen.hostOps1_3, Gen.hostOps1_4, List.flatten_cons, List.flatten_nil,
    List.append_nil, List.cons_append, List.nil_append]
  after_results_simp
  rw [h0, h1, h12, h13, h14, h15, h16, h17]
  rfl

/-- The tail does not write the kernel's output array: after the program it holds what the region left there. -/
theorem tail_out (dats : (p : Fin 1) → (c : Dev nD) → Dat τ (Elt Ideal) Unit ℕ (UR sig nD τ) ℕ (cfgs p) c) (c : Dev nD) :
    Pipeline.afterTail₀ cfgs dats 0 (Gen.V0 m) [Gen.hostOps1, Gen.hostOps1_1, Gen.hostOps1_2, Gen.hostOps1_3, Gen.hostOps1_4] c main_v11
      = (dats 0 c).arrAt 11 cfg0.N := by
  unfold Pipeline.afterTail₀
  rw [StableHlo.after_of_forall_not_mem (b := Proc.devRef .tc main_v11) _ _ (List.forall_iff_forall_mem.mp (by
      simp only [Gen.hostOps1, Gen.hostOps1_1, Gen.hostOps1_2, Gen.hostOps1_3, Gen.hostOps1_4, List.flatten_cons, List.flatten_nil,
        List.append_nil, List.cons_append, List.nil_append, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide)))]
  exact Pipeline.withArrays_arr spec0 Gen.launch0.win.arr_inj c _ _ 11

end Cert.KernelIdeal.HostSide

end
-- ==== Proof.RefRun.lean ====
/-
  The reference program as a straight line, and what its buffers hold after it.

  The reference computes, for every node, four dense layers with the leaky rectifier, a last affine map to one
  number and the logistic function, and repeats the resulting vector down 256 rows; and, for 256 gathered rows of
  the features, two dense layers with the leaky rectifier and a last affine map to one number.  Its text calls a
  rectifier function six times, and that function calls a selection function: here the calls are unfolded, so the
  program is one list of 95 array operations, and every execution of it ends with each buffer holding the fold of
  those operations over the launch contents.
-/
import proofs.«176911_j83107617178205_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The program's 95 operations in order, each call of the rectifier replaced by the seven operations it runs
    (the zero, its broadcast, the comparison, the slope, its broadcast, the product, the selection). -/
abbrev ops : List (HloOp τ sig (Elt F)) :=
  [
    StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v3) main_call0.v0 main_call0.v1 (cmpf .oge),
    TRef.nullary main_call0.cst_0 (constant S_ .f32 0x3C23D70A#32),
    TRef.unary main_call0.cst_0 main_call0.v2 (broadcastInDim S50000x128 ![] bcast_S_S50000x128),
    TRef.binary main_call0.v2 (.of main_v3) main_call0.v3 mulf,
    TRef.ternary main_call0.v1 (.of main_v3) main_call0.v3 main_call0.call0.v0 select,
    StableHlo.binary main_v4 main_arg4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v8) main_call1.v0 main_call1.v1 (cmpf .oge),
    TRef.nullary main_call1.cst_0 (constant S_ .f32 0x3C23D70A#32),
    TRef.unary main_call1.cst_0 main_call1.v2 (broadcastInDim S50000x128 ![] bcast_S_S50000x128),
    TRef.binary main_call1.v2 (.of main_v8) main_call1.v3 mulf,
    TRef.ternary main_call1.v1 (.of main_v8) main_call1.v3 main_call1.call0.v0 select,
    StableHlo.binary main_v9 main_arg6 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v13) main_call2.v0 main_call2.v1 (cmpf .oge),
    TRef.nullary main_call2.cst_0 (constant S_ .f32 0x3C23D70A#32),
    TRef.unary main_call2.cst_0 main_call2.v2 (broadcastInDim S50000x128 ![] bcast_S_S50000x128),
    TRef.binary main_call2.v2 (.of main_v13) main_call2.v3 mulf,
    TRef.ternary main_call2.v1 (.of main_v13) main_call2.v3 main_call2.call0.v0 select,
    StableHlo.binary main_v14 main_arg8 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v18) main_call3.v0 main_call3.v1 (cmpf .oge),
    TRef.nullary main_call3.cst_0 (constant S_ .f32 0x3C23D70A#32),
    TRef.unary main_call3.cst_0 main_call3.v2 (broadcastInDim S50000x128 ![] bcast_S_S50000x128),
    TRef.binary main_call3.v2 (.of main_v18) main_call3.v3 mulf,
    TRef.ternary main_call3.v1 (.of main_v18) main_call3.v3 main_call3.call0.v0 select,
    StableHlo.binary main_v19 main_arg10 main_v20 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg11 main_v21 (broadcastInDim S1x1 ![1] bcast_S1_S1x1_1 : (⟨S1, .f32⟩ : BufTy).Contents (Elt F) → (⟨S1x1, .f32⟩ : BufTy).Contents (Elt F)),
    StableHlo.unary main_v21 main_v22 (broadcastInDim S50000x1 ![0, 1] bcast_S1x1_S50000x1_0_1 : (⟨S1x1, .f32⟩ : BufTy).Contents (Elt F) → (⟨S50000x1, .f32⟩ : BufTy).Contents (Elt F)),
    StableHlo.binary main_v20 main_v22 main_v23 (addf : (⟨S50000x1, .f32⟩ : BufTy).Contents (Elt F) → (⟨S50000x1, .f32⟩ : BufTy).Contents (Elt F) → (⟨S50000x1, .f32⟩ : BufTy).Contents (Elt F)),
    StableHlo.unary main_v23 main_v24 (Host.negf : (⟨S50000x1, .f32⟩ : BufTy).Contents (Elt F) → (⟨S50000x1, .f32⟩ : BufTy).Contents (Elt F)),
    StableHlo.unary main_v24 main_v25 (Host.exp : (⟨S50000x1, .f32⟩ : BufTy).Contents (Elt F) → (⟨S50000x1, .f32⟩ : BufTy).Contents (Elt F)),
    StableHlo.nullary main_cst (constant S_ .f32 0x3F800000#32),
    StableHlo.unary main_cst main_v26 (broadcastInDim S50000x1 ![] bcast_S_S50000x1 : (⟨S_, .f32⟩ : BufTy).Contents (Elt F) → (⟨S50000x1, .f32⟩ : BufTy).Contents (Elt F)),
    StableHlo.binary main_v26 main_v25 main_v27 (addf : (⟨S50000x1, .f32⟩ : BufTy).Contents (Elt F) → (⟨S50000x1, .f32⟩ : BufTy).Contents (Elt F) → (⟨S50000x1, .f32⟩ : BufTy).Contents (Elt F)),
    StableHlo.nullary main_cst_0 (constant S_ .f32 0x3F800000#32),
    StableHlo.unary main_cst_0 main_v28 (broadcastInDim S50000x1 ![] bcast_S_S50000x1 : (⟨S_, .f32⟩ : BufTy).Contents (Elt F) → (⟨S50000x1, .f32⟩ : BufTy).Contents (Elt F)),
    StableHlo.binary main_v28 main_v27 main_v29 (Host.divf : (⟨S50000x1, .f32⟩ : BufTy).Contents (Elt F) → (⟨S50000x1, .f32⟩ : BufTy).Contents (Elt F) → (⟨S50000x1, .f32⟩ : BufTy).Contents (Elt F)),
    StableHlo.reshape main_v29 main_v30 rfl shapeCasts_S50000x1_S50000,
    StableHlo.unary main_v30 main_v31 (broadcastInDim S1x50000 ![1] bcast_S50000_S1x50000_1 : (⟨S50000, .f32⟩ : BufTy).Contents (Elt F) → (⟨S1x50000, .f32⟩ : BufTy).Contents (Elt F)),
    StableHlo.unary main_v31 main_v32 (broadcastInDim S256x50000 ![0, 1] bcast_S1x50000_S256x50000_0_1 : (⟨S1x50000, .f32⟩ : BufTy).Contents (Elt F) → (⟨S256x50000, .f32⟩ : BufTy).Contents (Elt F)),
    StableHlo.nullary main_c (constantI S_ 32 0#32),
    StableHlo.unary main_c main_v33 (broadcastInDim S256 ![] bcast_S_S256 : (⟨S_, .i32⟩ : BufTy).Contents (Elt F) → (⟨S256, .i32⟩ : BufTy).Contents (Elt F)),
    StableHlo.binary main_arg1 main_v33 main_v34 (cmpi .slt : (⟨S256, .i32⟩ : BufTy).Contents (Elt F) → (⟨S256, .i32⟩ : BufTy).Contents (Elt F) → (⟨S256, .i1⟩ : BufTy).Contents (Elt F)),
    StableHlo.nullary main_c_1 (constantI S_ 32 50000#32),
    StableHlo.unary main_c_1 main_v35 (broadcastInDim S256 ![] bcast_S_S256 : (⟨S_, .i32⟩ : BufTy).Contents (Elt F) → (⟨S256, .i32⟩ : BufTy).Contents (Elt F)),
    StableHlo.binary main_arg1 main_v35 main_v36 (addi : (⟨S256, .i32⟩ : BufTy).Contents (Elt F) → (⟨S256, .i32⟩ : BufTy).Contents (Elt F) → (⟨S256, .i32⟩ : BufTy).Contents (Elt F)),
    StableHlo.ternary main_v34 main_v36 main_arg1 main_v37 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v37 main_v38 (broadcastInDim S256x1 ![0] bcast_S256_S256x1_0 : (⟨S256, .i32⟩ : BufTy).Contents (Elt F) → (⟨S256x1, .i32⟩ : BufTy).Contents (Elt F)),
    StableHlo.binary main_arg0 main_v38 main_v39 ((fun x i => Host.gather gather_S50000x128_S256x1_S256x128_1_0_n_n_0_1_1128 x i) : (⟨S50000x128, .f32⟩ : BufTy).Contents (Elt F) → (⟨S256x1, .i32⟩ : BufTy).Contents (Elt F) → (⟨S256x128, .f32⟩ : BufTy).Contents (Elt F)),
    StableHlo.binary main_v39 main_arg12 main_v40 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg13 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S256x128 ![0, 1] bcast_S1x128_S256x128_0_1 : (⟨S1x128, .f32⟩ : BufTy).Contents (Elt F) → (⟨S256x128, .f32⟩ : BufTy).Contents (Elt F)),
    StableHlo.binary main_v40 main_v42 main_v43 (addf : (⟨S256x128, .f32⟩ : BufTy).Contents (Elt F) → (⟨S256x128, .f32⟩ : BufTy).Contents (Elt F) → (⟨S256x128, .f32⟩ : BufTy).Contents (Elt F)),
    TRef.nullary main_call4.cst (constant S_ .f32 0x00000000#32),
    TRef.unary main_call4.cst main_call4.v0 (broadcastInDim S256x128 ![] bcast_S_S256x128),
    TRef.binary (.of main_v43) main_call4.v0 main_call4.v1 (cmpf .oge),
    TRef.nullary main_call4.cst_0 (constant S_ .f32 0x3C23D70A#32),
    TRef.unary main_call4.cst_0 main_call4.v2 (broadcastInDim S256x128 ![] bcast_S_S256x128),
    TRef.binary main_call4.v2 (.of main_v43) main_call4.v3 mulf,
    TRef.ternary main_call4.v1 (.of main_v43) main_call4.v3 main_call4.call0.v0 select,
    StableHlo.binary main_v44 main_arg14 main_v45 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg15 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S256x128 ![0, 1] bcast_S1x128_S256x128_0_1 : (⟨S1x128, .f32⟩ : BufTy).Contents (Elt F) → (⟨S256x128, .f32⟩ : BufTy).Contents (Elt F)),
    StableHlo.binary main_v45 main_v47 main_v48 (addf : (⟨S256x128, .f32⟩ : BufTy).Contents (Elt F) → (⟨S256x128, .f32⟩ : BufTy).Contents (Elt F) → (⟨S256x128, .f32⟩ : BufTy).Contents (Elt F)),
    TRef.nullary main_call5.cst (constant S_ .f32 0x00000000#32),
    TRef.unary main_call5.cst main_call5.v0 (broadcastInDim S256x128 ![] bcast_S_S256x128),
    TRef.binary (.of main_v48) main_call5.v0 main_call5.v1 (cmpf .oge),
    TRef.nullary main_call5.cst_0 (constant S_ .f32 0x3C23D70A#32),
    TRef.unary main_call5.cst_0 main_call5.v2 (broadcastInDim S256x128 ![] bcast_S_S256x128),
    TRef.binary main_call5.v2 (.of main_v48) main_call5.v3 mulf,
    TRef.ternary main_call5.v1 (.of main_v48) main_call5.v3 main_call5.call0.v0 select,
    StableHlo.binary main_v49 main_arg16 main_v50 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    StableHlo.unary main_arg17 main_v51 (broadcastInDim S1x1 ![1] bcast_S1_S1x1_1 : (⟨S1, .f32⟩ : BufTy).Contents (Elt F) → (⟨S1x1, .f32⟩ : BufTy).Contents (Elt F)),
    StableHlo.unary main_v51 main_v52 (broadcastInDim S256x1 ![0, 1] bcast_S1x1_S256x1_0_1 : (⟨S1x1, .f32⟩ : BufTy).Contents (Elt F) → (⟨S256x1, .f32⟩ : BufTy).Contents (Elt F)),
    StableHlo.binary main_v50 main_v52 main_v53 (addf : (⟨S256x1, .f32⟩ : BufTy).Contents (Elt F) → (⟨S256x1, .f32⟩ : BufTy).Contents (Elt F) → (⟨S256x1, .f32⟩ : BufTy).Contents (Elt F)),
    StableHlo.reshape main_v53 main_v54 rfl shapeCasts_S256x1_S256 ]

set_option maxRecDepth 8192 in
/-- The program is that line: sequencing in the program's monad computes, so once the two functions are unfolded
    at their calls both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., reshape_bufs_sub ..⟩

/-- From any memory with zero counters every execution of the program terminates, and each buffer ends at the
    fold of the 95 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerms.lean ====
/-
  The two results of the reference program as functions of its arguments, at the exact extended-real values.

  `probRef`: the node features pass through four dense layers (a matrix product contracting the feature axis, a
  bias repeated down the rows, the leaky rectifier), a last product with a one-column matrix plus a one-entry
  bias, and the logistic function written as one over one plus the exponential of the negation; the resulting
  column is read as a vector and repeated down 256 rows.  `timeRef`: the rows of the features picked by the index
  vector (a negative index first moved up by the number of rows) pass through two dense layers with the leaky
  rectifier and a last product with a one-column matrix plus a one-entry bias, read as a vector.

  Both are the array operations of the program composed in program order; only the leaky rectifier, which the
  program applies six times, is named (`lreluP` on 50000 rows, `lreluT` on 256 rows).
-/
import proofs.«176911_j83107617178205_2_alg».proof.Proof.Gen.ReferenceIdeal
import Idealize.ShloMosaic.PureOps.Ideal

noncomputable section

namespace Cert.RefSide

open Cert.ReferenceIdeal Cert.ReferenceIdeal.Gen Idealize.ShloMosaic

/-- The leaky rectifier on a 50000 × 128 array: keep an entry where it is at least the zero word, else the slope
    word times it. -/
def lreluP (x : FVec Ideal S50000x128 .f32) : FVec Ideal S50000x128 .f32 :=
  select (cmpf .oge x (broadcastInDim S50000x128 ![] bcast_S_S50000x128 (constant S_ .f32 0x00000000#32))) x
    (mulf (broadcastInDim S50000x128 ![] bcast_S_S50000x128 (constant S_ .f32 0x3C23D70A#32)) x)

/-- The leaky rectifier on a 256 × 128 array. -/
def lreluT (x : FVec Ideal S256x128 .f32) : FVec Ideal S256x128 .f32 :=
  select (cmpf .oge x (broadcastInDim S256x128 ![] bcast_S_S256x128 (constant S_ .f32 0x00000000#32))) x
    (mulf (broadcastInDim S256x128 ![] bcast_S_S256x128 (constant S_ .f32 0x3C23D70A#32)) x)

/-- One dense layer on 50000 rows: the product with the weights, the bias repeated down the rows, the rectifier. -/
def layerP (x : FVec Ideal S50000x128 .f32) (w : FVec Ideal S128x128 .f32) (b : FVec Ideal S128 .f32) : FVec Ideal S50000x128 .f32 :=
  lreluP (addf (Host.dotGeneral dot_S50000x128_S128x128_S50000x128_1_0_0_1_n_n none x w) (broadcastInDim S50000x128 ![0, 1] bcast_S1x128_S50000x128_0_1 (broadcastInDim S1x128 ![1] bcast_S128_S1x128_1 b)))

/-- The end of the probability network: the product with the one-column weights plus the one-entry bias, one over
    one plus the exponential of the negation, the column read as a vector and repeated down 256 rows. -/
def tailP (h : FVec Ideal S50000x128 .f32) (w : FVec Ideal S128x1 .f32) (b : FVec Ideal S1 .f32) : FVec Ideal S256x50000 .f32 :=
  broadcastInDim S256x50000 ![0, 1] bcast_S1x50000_S256x50000_0_1 (broadcastInDim S1x50000 ![1] bcast_S50000_S1x50000_1 (shapeCast S50000 (Host.divf (broadcastInDim S50000x1 ![] bcast_S_S50000x1 (constant S_ .f32 0x3F800000#32)) (addf (broadcastInDim S50000x1 ![] bcast_S_S50000x1 (constant S_ .f32 0x3F800000#32)) (Host.exp (Host.negf (addf (Host.dotGeneral dot_S50000x128_S128x1_S50000x1_1_0_0_1_n_n none h w) (broadcastInDim S50000x1 ![0, 1] bcast_S1x1_S50000x1_0_1 (broadcastInDim S1x1 ![1] bcast_S1_S1x1_1 b))))))) shapeCasts_S50000x1_S50000))

/-- The rows of the features picked by the index vector, a negative index first moved up by the number of rows. -/
def gatherT (z : FVec Ideal S50000x128 .f32) (u : IVec S256 32) : FVec Ideal S256x128 .f32 :=
  Host.gather gather_S50000x128_S256x1_S256x128_1_0_n_n_0_1_1128 z (broadcastInDim S256x1 ![0] bcast_S256_S256x1_0 (select (cmpi .slt u (broadcastInDim S256 ![] bcast_S_S256 (constantI S_ 32 0#32))) (addi u (broadcastInDim S256 ![] bcast_S_S256 (constantI S_ 32 50000#32))) u))

/-- One dense layer on 256 rows. -/
def layerT (x : FVec Ideal S256x128 .f32) (w : FVec Ideal S128x128 .f32) (b : FVec Ideal S128 .f32) : FVec Ideal S256x128 .f32 :=
  lreluT (addf (Host.dotGeneral dot_S256x128_S128x128_S256x128_1_0_0_1_n_n none x w) (broadcastInDim S256x128 ![0, 1] bcast_S1x128_S256x128_0_1 (broadcastInDim S1x128 ![1] bcast_S128_S1x128_1 b)))

/-- The end of the time network: the product with the one-column weights plus the one-entry bias, read as a vector. -/
def tailT (h : FVec Ideal S256x128 .f32) (w : FVec Ideal S128x1 .f32) (b : FVec Ideal S1 .f32) : FVec Ideal S256 .f32 :=
  shapeCast S256 (addf (Host.dotGeneral dot_S256x128_S128x1_S256x1_1_0_0_1_n_n none h w) (broadcastInDim S256x1 ![0, 1] bcast_S1x1_S256x1_0_1 (broadcastInDim S1x1 ![1] bcast_S1_S1x1_1 b))) shapeCasts_S256x1_S256

/-- The first result: every node's probability, repeated down 256 rows. -/
def probRef (z : FVec Ideal S50000x128 .f32)
    (pw1 : FVec Ideal S128x128 .f32) (pb1 : FVec Ideal S128 .f32) (pw2 : FVec Ideal S128x128 .f32) (pb2 : FVec Ideal S128 .f32)
    (pw3 : FVec Ideal S128x128 .f32) (pb3 : FVec Ideal S128 .f32) (pw4 : FVec Ideal S128x128 .f32) (pb4 : FVec Ideal S128 .f32)
    (pw5 : FVec Ideal S128x1 .f32) (pb5 : FVec Ideal S1 .f32) : FVec Ideal S256x50000 .f32 :=
  broadcastInDim S256x50000 ![0, 1] bcast_S1x50000_S256x50000_0_1 (broadcastInDim S1x50000 ![1] bcast_S50000_S1x50000_1 (shapeCast S50000 (Host.divf (broadcastInDim S50000x1 ![] bcast_S_S50000x1 (constant S_ .f32 0x3F800000#32)) (addf (broadcastInDim S50000x1 ![] bcast_S_S50000x1 (constant S_ .f32 0x3F800000#32)) (Host.exp (Host.negf (addf (Host.dotGeneral dot_S50000x128_S128x1_S50000x1_1_0_0_1_n_n none (lreluP (addf (Host.dotGeneral dot_S50000x128_S128x128_S50000x128_1_0_0_1_n_n none (lreluP (addf (Host.dotGeneral dot_S50000x128_S128x128_S50000x128_1_0_0_1_n_n none (lreluP (addf (Host.dotGeneral dot_S50000x128_S128x128_S50000x128_1_0_0_1_n_n none (lreluP (addf (Host.dotGeneral dot_S50000x128_S128x128_S50000x128_1_0_0_1_n_n none z pw1) (broadcastInDim S50000x128 ![0, 1] bcast_S1x128_S50000x128_0_1 (broadcastInDim S1x128 ![1] bcast_S128_S1x128_1 pb1)))) pw2) (broadcastInDim S50000x128 ![0, 1] bcast_S1x128_S50000x128_0_1 (broadcastInDim S1x128 ![1] bcast_S128_S1x128_1 pb2)))) pw3) (broadcastInDim S50000x128 ![0, 1] bcast_S1x128_S50000x128_0_1 (broadcastInDim S1x128 ![1] bcast_S128_S1x128_1 pb3)))) pw4) (broadcastInDim S50000x128 ![0, 1] bcast_S1x128_S50000x128_0_1 (broadcastInDim S1x128 ![1] bcast_S128_S1x128_1 pb4)))) pw5) (broadcastInDim S50000x1 ![0, 1] bcast_S1x1_S50000x1_0_1 (broadcastInDim S1x1 ![1] bcast_S1_S1x1_1 pb5))))))) shapeCasts_S50000x1_S50000))

/-- The second result: the time of each of the 256 gathered rows. -/
def timeRef (z : FVec Ideal S50000x128 .f32) (u : IVec S256 32)
    (tw1 : FVec Ideal S128x128 .f32) (tb1 : FVec Ideal S128 .f32) (tw2 : FVec Ideal S128x128 .f32) (tb2 : FVec Ideal S128 .f32)
    (tw3 : FVec Ideal S128x1 .f32) (tb3 : FVec Ideal S1 .f32) : FVec Ideal S256 .f32 :=
  shapeCast S256 (addf (Host.dotGeneral dot_S256x128_S128x1_S256x1_1_0_0_1_n_n none (lreluT (addf (Host.dotGeneral dot_S256x128_S128x128_S256x128_1_0_0_1_n_n none (lreluT (addf (Host.dotGeneral dot_S256x128_S128x128_S256x128_1_0_0_1_n_n none (Host.gather gather_S50000x128_S256x1_S256x128_1_0_n_n_0_1_1128 z (broadcastInDim S256x1 ![0] bcast_S256_S256x1_0 (select (cmpi .slt u (broadcastInDim S256 ![] bcast_S_S256 (constantI S_ 32 0#32))) (addi u (broadcastInDim S256 ![] bcast_S_S256 (constantI S_ 32 50000#32))) u))) tw1) (broadcastInDim S256x128 ![0, 1] bcast_S1x128_S256x128_0_1 (broadcastInDim S1x128 ![1] bcast_S128_S1x128_1 tb1)))) tw2) (broadcastInDim S256x128 ![0, 1] bcast_S1x128_S256x128_0_1 (broadcastInDim S1x128 ![1] bcast_S128_S1x128_1 tb2)))) tw3) (broadcastInDim S256x1 ![0, 1] bcast_S1x1_S256x1_0_1 (broadcastInDim S1x1 ![1] bcast_S1_S1x1_1 tb3))) shapeCasts_S256x1_S256

/-- The first result is the four layers followed by the end of the probability network. -/
theorem probRef_eq (z : FVec Ideal S50000x128 .f32)
    (pw1 : FVec Ideal S128x128 .f32) (pb1 : FVec Ideal S128 .f32) (pw2 : FVec Ideal S128x128 .f32) (pb2 : FVec Ideal S128 .f32)
    (pw3 : FVec Ideal S128x128 .f32) (pb3 : FVec Ideal S128 .f32) (pw4 : FVec Ideal S128x128 .f32) (pb4 : FVec Ideal S128 .f32)
    (pw5 : FVec Ideal S128x1 .f32) (pb5 : FVec Ideal S1 .f32) :
    probRef z pw1 pb1 pw2 pb2 pw3 pb3 pw4 pb4 pw5 pb5
      = tailP (layerP (layerP (layerP (layerP z pw1 pb1) pw2 pb2) pw3 pb3) pw4 pb4) pw5 pb5 := rfl

/-- The second result is the gather, the two layers and the end of the time network. -/
theorem timeRef_eq (z : FVec Ideal S50000x128 .f32) (u : IVec S256 32)
    (tw1 : FVec Ideal S128x128 .f32) (tb1 : FVec Ideal S128 .f32) (tw2 : FVec Ideal S128x128 .f32) (tb2 : FVec Ideal S128 .f32)
    (tw3 : FVec Ideal S128x1 .f32) (tb3 : FVec Ideal S1 .f32) :
    timeRef z u tw1 tb1 tw2 tb2 tw3 tb3 = tailT (layerT (layerT (gatherT z u) tw1 tb1) tw2 tb2) tw3 tb3 := rfl

end Cert.RefSide

end
-- ==== Proof.RefSteps.lean ====
/-
  The reference program read window by window.

  The 95 operations are cut into nine consecutive windows: the four dense layers of the probability network, its
  last affine map with the logistic function and the two broadcasts, the index correction with the gather, the two
  dense layers of the time network, and its last affine map.  For each window and any contents before it, the
  buffer the window is there to produce holds the window's function of the buffers it reads, and every buffer the
  window does not write keeps its contents.  Chained, the two result buffers hold `probRef` and `timeRef` of the
  launch contents of the arguments, and every argument keeps its launch contents.
-/
import proofs.«176911_j83107617178205_2_alg».proof.Proof.RefRun
import proofs.«176911_j83107617178205_2_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Window 1: operations 1 to 11. -/
abbrev w1 {F : FTy → Type} [FloatOps F] : List (HloOp τ sig (Elt F)) :=
  [
    StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v3) main_call0.v0 main_call0.v1 (cmpf .oge),
    TRef.nullary main_call0.cst_0 (constant S_ .f32 0x3C23D70A#32),
    TRef.unary main_call0.cst_0 main_call0.v2 (broadcastInDim S50000x128 ![] bcast_S_S50000x128),
    TRef.binary main_call0.v2 (.of main_v3) main_call0.v3 mulf,
    TRef.ternary main_call0.v1 (.of main_v3) main_call0.v3 main_call0.call0.v0 select ]

/-- The buffers window 1 writes. -/
abbrev w1_W : List (Ref sig .tc) := [main_v0, main_v1, main_v2, main_v3, main_call0_cst, main_call0_v0, main_call0_v1, main_call0_cst_0, main_call0_v2, main_call0_v3, main_v4]

theorem w1_writes : (w1 : List (HloOp τ sig (Elt Ideal))).Forall fun op => op.writes ⊆ (w1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 1 does not write keeps its contents through it. -/
theorem w1_keep (W : Valuation τ sig (Elt Ideal)) (r : Ref sig .tc) (h : r ∉ w1_W) :
    after w1 W (no_index (Proc.devRef .tc r)) = W (Proc.devRef .tc r) :=
  after_of_writes_sub w1 _ w1_writes h

set_option maxRecDepth 8192 in
/-- What window 1 produces, from any contents before it. -/
theorem w1_out (W : Valuation τ sig (Elt Ideal)) :
    after w1 W (no_index (Proc.devRef .tc main_v4))
      = layerP (W (Proc.devRef .tc main_arg0)) (W (Proc.devRef .tc main_arg2)) (W (Proc.devRef .tc main_arg3)) := by
  after_results_simp
  rfl

/-- Window 2: operations 12 to 22. -/
abbrev w2 {F : FTy → Type} [FloatOps F] : List (HloOp τ sig (Elt F)) :=
  [
    StableHlo.binary main_v4 main_arg4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v8) main_call1.v0 main_call1.v1 (cmpf .oge),
    TRef.nullary main_call1.cst_0 (constant S_ .f32 0x3C23D70A#32),
    TRef.unary main_call1.cst_0 main_call1.v2 (broadcastInDim S50000x128 ![] bcast_S_S50000x128),
    TRef.binary main_call1.v2 (.of main_v8) main_call1.v3 mulf,
    TRef.ternary main_call1.v1 (.of main_v8) main_call1.v3 main_call1.call0.v0 select ]

/-- The buffers window 2 writes. -/
abbrev w2_W : List (Ref sig .tc) := [main_v5, main_v6, main_v7, main_v8, main_call1_cst, main_call1_v0, main_call1_v1, main_call1_cst_0, main_call1_v2, main_call1_v3, main_v9]

theorem w2_writes : (w2 : List (HloOp τ sig (Elt Ideal))).Forall fun op => op.writes ⊆ (w2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 2 does not write keeps its contents through it. -/
theorem w2_keep (W : Valuation τ sig (Elt Ideal)) (r : Ref sig .tc) (h : r ∉ w2_W) :
    after w2 W (no_index (Proc.devRef .tc r)) = W (Proc.devRef .tc r) :=
  after_of_writes_sub w2 _ w2_writes h

set_option maxRecDepth 8192 in
/-- What window 2 produces, from any contents before it. -/
theorem w2_out (W : Valuation τ sig (Elt Ideal)) :
    after w2 W (no_index (Proc.devRef .tc main_v9))
      = layerP (W (Proc.devRef .tc main_v4)) (W (Proc.devRef .tc main_arg4)) (W (Proc.devRef .tc main_arg5)) := by
  after_results_simp
  rfl

/-- Window 3: operations 23 to 33. -/
abbrev w3 {F : FTy → Type} [FloatOps F] : List (HloOp τ sig (Elt F)) :=
  [
    StableHlo.binary main_v9 main_arg6 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v13) main_call2.v0 main_call2.v1 (cmpf .oge),
    TRef.nullary main_call2.cst_0 (constant S_ .f32 0x3C23D70A#32),
    TRef.unary main_call2.cst_0 main_call2.v2 (broadcastInDim S50000x128 ![] bcast_S_S50000x128),
    TRef.binary main_call2.v2 (.of main_v13) main_call2.v3 mulf,
    TRef.ternary main_call2.v1 (.of main_v13) main_call2.v3 main_call2.call0.v0 select ]

/-- The buffers window 3 writes. -/
abbrev w3_W : List (Ref sig .tc) := [main_v10, main_v11, main_v12, main_v13, main_call2_cst, main_call2_v0, main_call2_v1, main_call2_cst_0, main_call2_v2, main_call2_v3, main_v14]

theorem w3_writes : (w3 : List (HloOp τ sig (Elt Ideal))).Forall fun op => op.writes ⊆ (w3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 3 does not write keeps its contents through it. -/
theorem w3_keep (W : Valuation τ sig (Elt Ideal)) (r : Ref sig .tc) (h : r ∉ w3_W) :
    after w3 W (no_index (Proc.devRef .tc r)) = W (Proc.devRef .tc r) :=
  after_of_writes_sub w3 _ w3_writes h

set_option maxRecDepth 8192 in
/-- What window 3 produces, from any contents before it. -/
theorem w3_out (W : Valuation τ sig (Elt Ideal)) :
    after w3 W (no_index (Proc.devRef .tc main_v14))
      = layerP (W (Proc.devRef .tc main_v9)) (W (Proc.devRef .tc main_arg6)) (W (Proc.devRef .tc main_arg7)) := by
  after_results_simp
  rfl

/-- Window 4: operations 34 to 44. -/
abbrev w4 {F : FTy → Type} [FloatOps F] : List (HloOp τ sig (Elt F)) :=
  [
    StableHlo.binary main_v14 main_arg8 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v18) main_call3.v0 main_call3.v1 (cmpf .oge),
    TRef.nullary main_call3.cst_0 (constant S_ .f32 0x3C23D70A#32),
    TRef.unary main_call3.cst_0 main_call3.v2 (broadcastInDim S50000x128 ![] bcast_S_S50000x128),
    TRef.binary main_call3.v2 (.of main_v18) main_call3.v3 mulf,
    TRef.ternary main_call3.v1 (.of main_v18) main_call3.v3 main_call3.call0.v0 select ]

/-- The buffers window 4 writes. -/
abbrev w4_W : List (Ref sig .tc) := [main_v15, main_v16, main_v17, main_v18, main_call3_cst, main_call3_v0, main_call3_v1, main_call3_cst_0, main_call3_v2, main_call3_v3, main_v19]

theorem w4_writes : (w4 : List (HloOp τ sig (Elt Ideal))).Forall fun op => op.writes ⊆ (w4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 4 does not write keeps its contents through it. -/
theorem w4_keep (W : Valuation τ sig (Elt Ideal)) (r : Ref sig .tc) (h : r ∉ w4_W) :
    after w4 W (no_index (Proc.devRef .tc r)) = W (Proc.devRef .tc r) :=
  after_of_writes_sub w4 _ w4_writes h

set_option maxRecDepth 8192 in
/-- What window 4 produces, from any contents before it. -/
theorem w4_out (W : Valuation τ sig (Elt Ideal)) :
    after w4 W (no_index (Proc.devRef .tc main_v19))
      = layerP (W (Proc.devRef .tc main_v14)) (W (Proc.devRef .tc main_arg8)) (W (Proc.devRef .tc main_arg9)) := by
  after_results_simp
  rfl

/-- Window 5: operations 45 to 59. -/
abbrev w5 {F : FTy → Type} [FloatOps F] : List (HloOp τ sig (Elt F)) :=
  [
    StableHlo.binary main_v19 main_arg10 main_v20 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg11 main_v21 (broadcastInDim S1x1 ![1] bcast_S1_S1x1_1 : (⟨S1, .f32⟩ : BufTy).Contents (Elt F) → (⟨S1x1, .f32⟩ : BufTy).Contents (Elt F)),
    StableHlo.unary main_v21 main_v22 (broadcastInDim S50000x1 ![0, 1] bcast_S1x1_S50000x1_0_1 : (⟨S1x1, .f32⟩ : BufTy).Contents (Elt F) → (⟨S50000x1, .f32⟩ : BufTy).Contents (Elt F)),
    StableHlo.binary main_v20 main_v22 main_v23 (addf : (⟨S50000x1, .f32⟩ : BufTy).Contents (Elt F) → (⟨S50000x1, .f32⟩ : BufTy).Contents (Elt F) → (⟨S50000x1, .f32⟩ : BufTy).Contents (Elt F)),
    StableHlo.unary main_v23 main_v24 (Host.negf : (⟨S50000x1, .f32⟩ : BufTy).Contents (Elt F) → (⟨S50000x1, .f32⟩ : BufTy).Contents (Elt F)),
    StableHlo.unary main_v24 main_v25 (Host.exp : (⟨S50000x1, .f32⟩ : BufTy).Contents (Elt F) → (⟨S50000x1, .f32⟩ : BufTy).Contents (Elt F)),
    StableHlo.nullary main_cst (constant S_ .f32 0x3F800000#32),
    StableHlo.unary main_cst main_v26 (broadcastInDim S50000x1 ![] bcast_S_S50000x1 : (⟨S_, .f32⟩ : BufTy).Contents (Elt F) → (⟨S50000x1, .f32⟩ : BufTy).Contents (Elt F)),
    StableHlo.binary main_v26 main_v25 main_v27 (addf : (⟨S50000x1, .f32⟩ : BufTy).Contents (Elt F) → (⟨S50000x1, .f32⟩ : BufTy).Contents (Elt F) → (⟨S50000x1, .f32⟩ : BufTy).Contents (Elt F)),
    StableHlo.nullary main_cst_0 (constant S_ .f32 0x3F800000#32),
    StableHlo.unary main_cst_0 main_v28 (broadcastInDim S50000x1 ![] bcast_S_S50000x1 : (⟨S_, .f32⟩ : BufTy).Contents (Elt F) → (⟨S50000x1, .f32⟩ : BufTy).Contents (Elt F)),
    StableHlo.binary main_v28 main_v27 main_v29 (Host.divf : (⟨S50000x1, .f32⟩ : BufTy).Contents (Elt F) → (⟨S50000x1, .f32⟩ : BufTy).Contents (Elt F) → (⟨S50000x1, .f32⟩ : BufTy).Contents (Elt F)),
    StableHlo.reshape main_v29 main_v30 rfl shapeCasts_S50000x1_S50000,
    StableHlo.unary main_v30 main_v31 (broadcastInDim S1x50000 ![1] bcast_S50000_S1x50000_1 : (⟨S50000, .f32⟩ : BufTy).Contents (Elt F) → (⟨S1x50000, .f32⟩ : BufTy).Contents (Elt F)),
    StableHlo.unary main_v31 main_v32 (broadcastInDim S256x50000 ![0, 1] bcast_S1x50000_S256x50000_0_1 : (⟨S1x50000, .f32⟩ : BufTy).Contents (Elt F) → (⟨S256x50000, .f32⟩ : BufTy).Contents (Elt F)) ]

/-- The buffers window 5 writes. -/
abbrev w5_W : List (Ref sig .tc) := [main_v20, main_v21, main_v22, main_v23, main_v24, main_v25, main_cst, main_v26, main_v27, main_cst_0, main_v28, main_v29, main_v30, main_v31, main_v32]

theorem w5_writes : (w5 : List (HloOp τ sig (Elt Ideal))).Forall fun op => op.writes ⊆ (w5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 5 does not write keeps its contents through it. -/
theorem w5_keep (W : Valuation τ sig (Elt Ideal)) (r : Ref sig .tc) (h : r ∉ w5_W) :
    after w5 W (no_index (Proc.devRef .tc r)) = W (Proc.devRef .tc r) :=
  after_of_writes_sub w5 _ w5_writes h

set_option maxRecDepth 8192 in
/-- What window 5 produces, from any contents before it. -/
theorem w5_out (W : Valuation τ sig (Elt Ideal)) :
    after w5 W (no_index (Proc.devRef .tc main_v32))
      = tailP (W (Proc.devRef .tc main_v19)) (W (Proc.devRef .tc main_arg10)) (W (Proc.devRef .tc main_arg11)) := by
  after_results_simp
  rfl

/-- Window 6: operations 60 to 68. -/
abbrev w6 {F : FTy → Type} [FloatOps F] : List (HloOp τ sig (Elt F)) :=
  [
    StableHlo.nullary main_c (constantI S_ 32 0#32),
    StableHlo.unary main_c main_v33 (broadcastInDim S256 ![] bcast_S_S256 : (⟨S_, .i32⟩ : BufTy).Contents (Elt F) → (⟨S256, .i32⟩ : BufTy).Contents (Elt F)),
    StableHlo.binary main_arg1 main_v33 main_v34 (cmpi .slt : (⟨S256, .i32⟩ : BufTy).Contents (Elt F) → (⟨S256, .i32⟩ : BufTy).Contents (Elt F) → (⟨S256, .i1⟩ : BufTy).Contents (Elt F)),
    StableHlo.nullary main_c_1 (constantI S_ 32 50000#32),
    StableHlo.unary main_c_1 main_v35 (broadcastInDim S256 ![] bcast_S_S256 : (⟨S_, .i32⟩ : BufTy).Contents (Elt F) → (⟨S256, .i32⟩ : BufTy).Contents (Elt F)),
    StableHlo.binary main_arg1 main_v35 main_v36 (addi : (⟨S256, .i32⟩ : BufTy).Contents (Elt F) → (⟨S256, .i32⟩ : BufTy).Contents (Elt F) → (⟨S256, .i32⟩ : BufTy).Contents (Elt F)),
    StableHlo.ternary main_v34 main_v36 main_arg1 main_v37 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v37 main_v38 (broadcastInDim S256x1 ![0] bcast_S256_S256x1_0 : (⟨S256, .i32⟩ : BufTy).Contents (Elt F) → (⟨S256x1, .i32⟩ : BufTy).Contents (Elt F)),
    StableHlo.binary main_arg0 main_v38 main_v39 ((fun x i => Host.gather gather_S50000x128_S256x1_S256x128_1_0_n_n_0_1_1128 x i) : (⟨S50000x128, .f32⟩ : BufTy).Contents (Elt F) → (⟨S256x1, .i32⟩ : BufTy).Contents (Elt F) → (⟨S256x128, .f32⟩ : BufTy).Contents (Elt F)) ]

/-- The buffers window 6 writes. -/
abbrev w6_W : List (Ref sig .tc) := [main_c, main_v33, main_v34, main_c_1, main_v35, main_v36, main_v37, main_v38, main_v39]

theorem w6_writes : (w6 : List (HloOp τ sig (Elt Ideal))).Forall fun op => op.writes ⊆ (w6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 6 does not write keeps its contents through it. -/
theorem w6_keep (W : Valuation τ sig (Elt Ideal)) (r : Ref sig .tc) (h : r ∉ w6_W) :
    after w6 W (no_index (Proc.devRef .tc r)) = W (Proc.devRef .tc r) :=
  after_of_writes_sub w6 _ w6_writes h

set_option maxRecDepth 8192 in
/-- What window 6 produces, from any contents before it. -/
theorem w6_out (W : Valuation τ sig (Elt Ideal)) :
    after w6 W (no_index (Proc.devRef .tc main_v39))
      = gatherT (W (Proc.devRef .tc main_arg0)) (W (Proc.devRef .tc main_arg1)) := by
  after_results_simp
  rfl

/-- Window 7: operations 69 to 79. -/
abbrev w7 {F : FTy → Type} [FloatOps F] : List (HloOp τ sig (Elt F)) :=
  [
    StableHlo.binary main_v39 main_arg12 main_v40 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg13 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S256x128 ![0, 1] bcast_S1x128_S256x128_0_1 : (⟨S1x128, .f32⟩ : BufTy).Contents (Elt F) → (⟨S256x128, .f32⟩ : BufTy).Contents (Elt F)),
    StableHlo.binary main_v40 main_v42 main_v43 (addf : (⟨S256x128, .f32⟩ : BufTy).Contents (Elt F) → (⟨S256x128, .f32⟩ : BufTy).Contents (Elt F) → (⟨S256x128, .f32⟩ : BufTy).Contents (Elt F)),
    TRef.nullary main_call4.cst (constant S_ .f32 0x00000000#32),
    TRef.unary main_call4.cst main_call4.v0 (broadcastInDim S256x128 ![] bcast_S_S256x128),
    TRef.binary (.of main_v43) main_call4.v0 main_call4.v1 (cmpf .oge),
    TRef.nullary main_call4.cst_0 (constant S_ .f32 0x3C23D70A#32),
    TRef.unary main_call4.cst_0 main_call4.v2 (broadcastInDim S256x128 ![] bcast_S_S256x128),
    TRef.binary main_call4.v2 (.of main_v43) main_call4.v3 mulf,
    TRef.ternary main_call4.v1 (.of main_v43) main_call4.v3 main_call4.call0.v0 select ]

/-- The buffers window 7 writes. -/
abbrev w7_W : List (Ref sig .tc) := [main_v40, main_v41, main_v42, main_v43, main_call4_cst, main_call4_v0, main_call4_v1, main_call4_cst_0, main_call4_v2, main_call4_v3, main_v44]

theorem w7_writes : (w7 : List (HloOp τ sig (Elt Ideal))).Forall fun op => op.writes ⊆ (w7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 7 does not write keeps its contents through it. -/
theorem w7_keep (W : Valuation τ sig (Elt Ideal)) (r : Ref sig .tc) (h : r ∉ w7_W) :
    after w7 W (no_index (Proc.devRef .tc r)) = W (Proc.devRef .tc r) :=
  after_of_writes_sub w7 _ w7_writes h

set_option maxRecDepth 8192 in
/-- What window 7 produces, from any contents before it. -/
theorem w7_out (W : Valuation τ sig (Elt Ideal)) :
    after w7 W (no_index (Proc.devRef .tc main_v44))
      = layerT (W (Proc.devRef .tc main_v39)) (W (Proc.devRef .tc main_arg12)) (W (Proc.devRef .tc main_arg13)) := by
  after_results_simp
  rfl

/-- Window 8: operations 80 to 90. -/
abbrev w8 {F : FTy → Type} [FloatOps F] : List (HloOp τ sig (Elt F)) :=
  [
    StableHlo.binary main_v44 main_arg14 main_v45 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg15 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S256x128 ![0, 1] bcast_S1x128_S256x128_0_1 : (⟨S1x128, .f32⟩ : BufTy).Contents (Elt F) → (⟨S256x128, .f32⟩ : BufTy).Contents (Elt F)),
    StableHlo.binary main_v45 main_v47 main_v48 (addf : (⟨S256x128, .f32⟩ : BufTy).Contents (Elt F) → (⟨S256x128, .f32⟩ : BufTy).Contents (Elt F) → (⟨S256x128, .f32⟩ : BufTy).Contents (Elt F)),
    TRef.nullary main_call5.cst (constant S_ .f32 0x00000000#32),
    TRef.unary main_call5.cst main_call5.v0 (broadcastInDim S256x128 ![] bcast_S_S256x128),
    TRef.binary (.of main_v48) main_call5.v0 main_call5.v1 (cmpf .oge),
    TRef.nullary main_call5.cst_0 (constant S_ .f32 0x3C23D70A#32),
    TRef.unary main_call5.cst_0 main_call5.v2 (broadcastInDim S256x128 ![] bcast_S_S256x128),
    TRef.binary main_call5.v2 (.of main_v48) main_call5.v3 mulf,
    TRef.ternary main_call5.v1 (.of main_v48) main_call5.v3 main_call5.call0.v0 select ]

/-- The buffers window 8 writes. -/
abbrev w8_W : List (Ref sig .tc) := [main_v45, main_v46, main_v47, main_v48, main_call5_cst, main_call5_v0, main_call5_v1, main_call5_cst_0, main_call5_v2, main_call5_v3, main_v49]

theorem w8_writes : (w8 : List (HloOp τ sig (Elt Ideal))).Forall fun op => op.writes ⊆ (w8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 8 does not write keeps its contents through it. -/
theorem w8_keep (W : Valuation τ sig (Elt Ideal)) (r : Ref sig .tc) (h : r ∉ w8_W) :
    after w8 W (no_index (Proc.devRef .tc r)) = W (Proc.devRef .tc r) :=
  after_of_writes_sub w8 _ w8_writes h

set_option maxRecDepth 8192 in
/-- What window 8 produces, from any contents before it. -/
theorem w8_out (W : Valuation τ sig (Elt Ideal)) :
    after w8 W (no_index (Proc.devRef .tc main_v49))
      = layerT (W (Proc.devRef .tc main_v44)) (W (Proc.devRef .tc main_arg14)) (W (Proc.devRef .tc main_arg15)) := by
  after_results_simp
  rfl

/-- Window 9: operations 91 to 95. -/
abbrev w9 {F : FTy → Type} [FloatOps F] : List (HloOp τ sig (Elt F)) :=
  [
    StableHlo.binary main_v49 main_arg16 main_v50 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    StableHlo.unary main_arg17 main_v51 (broadcastInDim S1x1 ![1] bcast_S1_S1x1_1 : (⟨S1, .f32⟩ : BufTy).Contents (Elt F) → (⟨S1x1, .f32⟩ : BufTy).Contents (Elt F)),
    StableHlo.unary main_v51 main_v52 (broadcastInDim S256x1 ![0, 1] bcast_S1x1_S256x1_0_1 : (⟨S1x1, .f32⟩ : BufTy).Contents (Elt F) → (⟨S256x1, .f32⟩ : BufTy).Contents (Elt F)),
    StableHlo.binary main_v50 main_v52 main_v53 (addf : (⟨S256x1, .f32⟩ : BufTy).Contents (Elt F) → (⟨S256x1, .f32⟩ : BufTy).Contents (Elt F) → (⟨S256x1, .f32⟩ : BufTy).Contents (Elt F)),
    StableHlo.reshape main_v53 main_v54 rfl shapeCasts_S256x1_S256 ]

/-- The buffers window 9 writes. -/
abbrev w9_W : List (Ref sig .tc) := [main_v50, main_v51, main_v52, main_v53, main_v54]

theorem w9_writes : (w9 : List (HloOp τ sig (Elt Ideal))).Forall fun op => op.writes ⊆ (w9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer window 9 does not write keeps its contents through it. -/
theorem w9_keep (W : Valuation τ sig (Elt Ideal)) (r : Ref sig .tc) (h : r ∉ w9_W) :
    after w9 W (no_index (Proc.devRef .tc r)) = W (Proc.devRef .tc r) :=
  after_of_writes_sub w9 _ w9_writes h

set_option maxRecDepth 8192 in
/-- What window 9 produces, from any contents before it. -/
theorem w9_out (W : Valuation τ sig (Elt Ideal)) :
    after w9 W (no_index (Proc.devRef .tc main_v54))
      = tailT (W (Proc.devRef .tc main_v49)) (W (Proc.devRef .tc main_arg16)) (W (Proc.devRef .tc main_arg17)) := by
  after_results_simp
  rfl

/-- The program's line is the nine windows in order. -/
theorem ops_eq : (ops : List (HloOp τ sig (Elt Ideal))) = w1 ++ (w2 ++ (w3 ++ (w4 ++ (w5 ++ (w6 ++ (w7 ++ (w8 ++ w9))))))) := rfl

end Cert.RefSide

end
-- ==== Proof.RefResult.lean ====
/-
  What the reference program computes, stated over executions.

  Chaining the nine windows: after the whole line the first result buffer holds `probRef` of the launch contents of
  the features and the ten probability-network parameters, the second holds `timeRef` of the launch contents of the
  features, the indices and the six time-network parameters, and no argument buffer is written.  With the run of the
  line this gives the statement over executions: from any memory with zero counters every execution of the reference
  terminates with its two results at those values and its eighteen arguments unchanged.
-/
import proofs.«176911_j83107617178205_2_alg».proof.Proof.RefSteps

noncomputable section

namespace Cert.RefSide

open Cert.ReferenceIdeal Cert.ReferenceIdeal.Gen Idealize.ShloMosaic Idealize.ShloMosaic.TcCoe Idealize.SL.Sem Idealize.ShloMosaic.StableHlo

/-- After the whole line the first result is `probRef` of the arguments' contents before it. -/
theorem prob_eq (V : Valuation τ sig (Elt Ideal)) :
    after ops V (Proc.devRef .tc main_v32)
      = probRef (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_eq, probRef_eq]
  simp (disch := decide) only [after_append, w1_out, w2_out, w3_out, w4_out, w5_out, w6_out, w7_out, w8_out, w9_out, w1_keep, w2_keep, w3_keep, w4_keep, w5_keep, w6_keep, w7_keep, w8_keep, w9_keep]

/-- After the whole line the second result is `timeRef` of the arguments' contents before it. -/
theorem time_eq (V : Valuation τ sig (Elt Ideal)) :
    after ops V (Proc.devRef .tc main_v54)
      = timeRef (V (Proc.devRef .tc main_arg0)) (V (Proc.devRef .tc main_arg1)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [ops_eq, timeRef_eq]
  simp (disch := decide) only [after_append, w1_out, w2_out, w3_out, w4_out, w5_out, w6_out, w7_out, w8_out, w9_out, w1_keep, w2_keep, w3_keep, w4_keep, w5_keep, w6_keep, w7_keep, w8_keep, w9_keep]

/-- A buffer no window writes keeps its contents through the whole line. -/
theorem keep (V : Valuation τ sig (Elt Ideal)) (r : Ref sig .tc)
    (h1 : r ∉ w1_W) (h2 : r ∉ w2_W) (h3 : r ∉ w3_W) (h4 : r ∉ w4_W) (h5 : r ∉ w5_W) (h6 : r ∉ w6_W) (h7 : r ∉ w7_W)
    (h8 : r ∉ w8_W) (h9 : r ∉ w9_W) : after ops V (Proc.devRef .tc r) = V (Proc.devRef .tc r) := by
  rw [ops_eq]
  simp only [after_append]
  rw [w9_keep _ r h9, w8_keep _ r h8, w7_keep _ r h7, w6_keep _ r h6, w5_keep _ r h5, w4_keep _ r h4, w3_keep _ r h3,
    w2_keep _ r h2, w1_keep _ r h1]

/-- From any memory with zero counters, every execution of the reference terminates with the first result at
    `probRef` and the second at `timeRef` of the arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v32) = probRef (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v54) = timeRef (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  (θ_run defs _ _).mono (fun _ h c => ⟨(h c main_v32).trans (prob_eq _), (h c main_v54).trans (time_eq _),
      (h c main_arg0).trans (keep _ main_arg0 (by decide) (by decide) (by decide) (by decide) (by decide) (by decide) (by decide) (by decide) (by decide)),
      (h c main_arg1).trans (keep _ main_arg1 (by decide) (by decide) (by decide) (by decide) (by decide) (by decide) (by decide) (by decide) (by decide)),
      (h c main_arg2).trans (keep _ main_arg2 (by decide) (by decide) (by decide) (by decide) (by decide) (by decide) (by decide) (by decide) (by decide)),
      (h c main_arg3).trans (keep _ main_arg3 (by decide) (by decide) (by decide) (by decide) (by decide) (by decide) (by decide) (by decide) (by decide)),
      (h c main_arg4).trans (keep _ main_arg4 (by decide) (by decide) (by decide) (by decide) (by decide) (by decide) (by decide) (by decide) (by decide)),
      (h c main_arg5).trans (keep _ main_arg5 (by decide) (by decide) (by decide) (by decide) (by decide) (by decide) (by decide) (by decide) (by decide)),
      (h c main_arg6).trans (keep _ main_arg6 (by decide) (by decide) (by decide) (by decide) (by decide) (by decide) (by decide) (by decide) (by decide)),
      (h c main_arg7).trans (keep _ main_arg7 (by decide) (by decide) (by decide) (by decide) (by decide) (by decide) (by decide) (by decide) (by decide)),
      (h c main_arg8).trans (keep _ main_arg8 (by decide) (by decide) (by decide) (by decide) (by decide) (by decide) (by decide) (by decide) (by decide)),
      (h c main_arg9).trans (keep _ main_arg9 (by decide) (by decide) (by decide) (by decide) (by decide) (by decide) (by decide) (by decide) (by decide)),
      (h c main_arg10).trans (keep _ main_arg10 (by decide) (by decide) (by decide) (by decide) (by decide) (by decide) (by decide) (by decide) (by decide)),
      (h c main_arg11).trans (keep _ main_arg11 (by decide) (by decide) (by decide) (by decide) (by decide) (by decide) (by decide) (by decide) (by decide)),
      (h c main_arg12).trans (keep _ main_arg12 (by decide) (by decide) (by decide) (by decide) (by decide) (by decide) (by decide) (by decide) (by decide)),
      (h c main_arg13).trans (keep _ main_arg13 (by decide) (by decide) (by decide) (by decide) (by decide) (by decide) (by decide) (by decide) (by decide)),
      (h c main_arg14).trans (keep _ main_arg14 (by decide) (by decide) (by decide) (by decide) (by decide) (by decide) (by decide) (by decide) (by decide)),
      (h c main_arg15).trans (keep _ main_arg15 (by decide) (by decide) (by decide) (by decide) (by decide) (by decide) (by decide) (by decide) (by decide)),
      (h c main_arg16).trans (keep _ main_arg16 (by decide) (by decide) (by decide) (by decide) (by decide) (by decide) (by decide) (by decide) (by decide)),
      (h c main_arg17).trans (keep _ main_arg17 (by decide) (by decide) (by decide) (by decide) (by decide) (by decide) (by decide) (by decide) (by decide))⟩)
    (run_main m ρ)

end Cert.RefSide

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefValue.lean ====
/-
  The first result of the reference program, read at an index.

  Row `b`, column `n` of `probRef` is the probability of node `n`: the node's feature row through four dense layers
  (at each output coordinate the sum over the 128 inputs of input times weight, plus the bias, through the leaky
  rectifier), the last affine map to one number, and the logistic function.  Each piece of the program is read at
  an index on its own — a dense layer by the sum formula of the matrix product and the bias read through its two
  broadcasts, the rectifier entrywise, the logistic function as one over one plus the exponential of the negation
  with the word of the float one read as the real one, the reshape of a one-column matrix to a vector and the two
  broadcasts down the rows by their index arithmetic — and the pieces are then chained.
-/
import proofs.«176911_j83107617178205_2_alg».proof.Proof.RefTerms
import proofs.«176911_j83107617178205_2_alg».proof.Proof.Spec
import proofs.«176911_j83107617178205_2_alg».proof.Proof.LibHostRead

noncomputable section

open scoped BigOperators

namespace Cert.RefSide

open Cert.ReferenceIdeal Cert.ReferenceIdeal.Gen Idealize.ShloMosaic Idealize.ShloMosaic.ValueIdx Cert.HostRead

/-- A one-column matrix read as a vector: entry `p` is row `p`, column 0. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p 0) :=
  shapeCast_apply x h (ix1 p) (ix2 p 0) (by
    rw [Shape.rowMajor_val_two, Shape.rowMajor_val_one]; show p.val * 1 + 0 = p.val; omega)

/-- The rectifier on 50000 rows acts entrywise, as the specification's. -/
theorem lreluP_apply (x : FVec Ideal S50000x128 .f32) (i : S50000x128.Idx) : lreluP x i = Cert.Spec.lrelu (x i) := rfl

/-- One dense layer at row `n`, output coordinate `j`. -/
theorem layerP_apply (x : FVec Ideal S50000x128 .f32) (w : FVec Ideal S128x128 .f32) (b : FVec Ideal S128 .f32)
    (n : Fin 50000) (j : Fin 128) :
    layerP x w b (ix2 n j) = Cert.Spec.lrelu ((∑ k : Fin 128, x (ix2 n k) * w (ix2 k j)) + b (ix1 j)) := by
  unfold layerP
  rw [lreluP_apply, addf_apply, dotGeneral_ix2_apply _ rfl rfl rfl rfl rfl rfl, bias_rows_apply]

/-- One dense layer, row by row, is the specification's layer of that row. -/
theorem layerP_row (x : FVec Ideal S50000x128 .f32) (w : FVec Ideal S128x128 .f32) (b : FVec Ideal S128 .f32) (n : Fin 50000) :
    (fun j : Fin 128 => layerP x w b (ix2 n j))
      = Cert.Spec.layer (fun k => x (ix2 n k)) (fun k j => w (ix2 k j)) (fun j => b (ix1 j)) :=
  funext fun j => layerP_apply x w b n j

/-- The end of the probability network at row `r`, column `n`: the logistic function of node `n`'s last affine map. -/
theorem tailP_apply (h : FVec Ideal S50000x128 .f32) (w : FVec Ideal S128x1 .f32) (b : FVec Ideal S1 .f32)
    (r : Fin 256) (n : Fin 50000) :
    tailP h w b (ix2 r n)
      = Ideal.logistic (Cert.Spec.logit (fun k => h (ix2 n k)) (fun k => w (ix2 k 0)) (b (ix1 0))) := by
  unfold tailP
  rw [bias_rows_apply, shapeCast_a1_a_apply]
  show Ideal.div (broadcastInDim S50000x1 ![] bcast_S_S50000x1 (constant (F := Ideal) S_ .f32 0x3F800000#32) (ix2 n 0))
      (broadcastInDim S50000x1 ![] bcast_S_S50000x1 (constant (F := Ideal) S_ .f32 0x3F800000#32) (ix2 n 0)
        + Ideal.exp (-(addf (Host.dotGeneral dot_S50000x128_S128x1_S50000x1_1_0_0_1_n_n none h w)
            (broadcastInDim S50000x1 ![0, 1] bcast_S1x1_S50000x1_0_1 (broadcastInDim S1x1 ![1] bcast_S1_S1x1_1 b)) (ix2 n 0)))) = _
  rw [scalar_bcast_apply, constant_apply, ofBits_one_f32, addf_apply, dotGeneral_ix2_apply _ rfl rfl rfl rfl rfl rfl,
    bias_rows_apply]
  rfl

/-- Row `b`, column `n` of the first result is the specification's probability of node `n`. -/
theorem probRef_apply (z : FVec Ideal S50000x128 .f32)
    (pw1 : FVec Ideal S128x128 .f32) (pb1 : FVec Ideal S128 .f32) (pw2 : FVec Ideal S128x128 .f32) (pb2 : FVec Ideal S128 .f32)
    (pw3 : FVec Ideal S128x128 .f32) (pb3 : FVec Ideal S128 .f32) (pw4 : FVec Ideal S128x128 .f32) (pb4 : FVec Ideal S128 .f32)
    (pw5 : FVec Ideal S128x1 .f32) (pb5 : FVec Ideal S1 .f32) (b : Fin 256) (n : Fin 50000) :
    probRef z pw1 pb1 pw2 pb2 pw3 pb3 pw4 pb4 pw5 pb5 (ix2 b n)
      = Cert.Spec.probRow (fun k => z (ix2 n k)) (fun k j => pw1 (ix2 k j)) (fun j => pb1 (ix1 j))
          (fun k j => pw2 (ix2 k j)) (fun j => pb2 (ix1 j)) (fun k j => pw3 (ix2 k j)) (fun j => pb3 (ix1 j))
          (fun k j => pw4 (ix2 k j)) (fun j => pb4 (ix1 j)) (fun k => pw5 (ix2 k 0)) (pb5 (ix1 0)) := by
  rw [probRef_eq, tailP_apply, layerP_row, layerP_row, layerP_row, layerP_row]
  rfl

end Cert.RefSide

end
-- ==== Proof.Bridge.lean ====
/-
  The two idealized programs compute the same two results.

  The kernel's output array, read index by index, is every node's probability from the staged arrays; the staged
  weights are the arguments themselves (a change of float format is the identity on the extended reals), the
  staged biases the arguments re-laid as rows, the last weight the argument transposed.  The reference's first
  result, read index by index, is the same probability of the same arguments.  The second result is computed in
  both programs by the same host operations applied to the same arguments.
-/
import proofs.«176911_j83107617178205_2_alg».proof.Proof.KernelRun
import proofs.«176911_j83107617178205_2_alg».proof.Proof.HostPrefix
import proofs.«176911_j83107617178205_2_alg».proof.Proof.HostTail
import proofs.«176911_j83107617178205_2_alg».proof.Proof.RefResult
import proofs.«176911_j83107617178205_2_alg».proof.Proof.RefValue

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.OutValue

variable (m : (ℓ : Loc nD τ sig) → Buf (Elt Ideal) ℓ)

/-- The second result: the two programs' host operations are the same operations of the same arguments. -/
theorem time_terms (z : FVec Ideal Cert.ReferenceIdeal.S50000x128 .f32) (u : IVec Cert.ReferenceIdeal.S256 32)
    (tw1 : FVec Ideal Cert.ReferenceIdeal.S128x128 .f32) (tb1 : FVec Ideal Cert.ReferenceIdeal.S128 .f32)
    (tw2 : FVec Ideal Cert.ReferenceIdeal.S128x128 .f32) (tb2 : FVec Ideal Cert.ReferenceIdeal.S128 .f32)
    (tw3 : FVec Ideal Cert.ReferenceIdeal.S128x1 .f32) (tb3 : FVec Ideal Cert.ReferenceIdeal.S1 .f32) :
    Cert.KernelIdeal.HostSide.timeKer z u tw1 tb1 tw2 tb2 tw3 tb3 = Cert.RefSide.timeRef z u tw1 tb1 tw2 tb2 tw3 tb3 := by
  unfold Cert.KernelIdeal.HostSide.timeKer Cert.RefSide.timeRef Cert.RefSide.lreluT
  rfl

/-- What the kernel's host lines after the region compute is the reference's second result of the same arguments. -/
theorem time_eq (c : Dev nD) :
    Pipeline.afterTail₀ cfgs (Exact.dats m) 0 (V0 m) [hostOps1, hostOps1_1, hostOps1_2, hostOps1_3, hostOps1_4] c main_v33
      = Cert.RefSide.timeRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) :=
  (Cert.KernelIdeal.HostSide.tail_time m (Exact.dats m) (Exact.A_eq m) c).trans (time_terms _ _ _ _ _ _ _ _)

/-- The kernel's output array is the reference's first result of the same arguments. -/
theorem prob_eq (c : Dev nD) :
    probArr (V m c main_arg0) (V m c main_v0) (V m c main_v6) (V m c main_v1) (V m c main_v7) (V m c main_v2) (V m c main_v8)
        (V m c main_v3) (V m c main_v9) (V m c main_v5) (V m c main_v10)
      = Cert.RefSide.probRef (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  funext i
  obtain ⟨b, n, rfl⟩ : ∃ (b : Fin 256) (n : Fin 50000), i = ix2 b n := ⟨i 0, i 1, eq_ix2 i⟩
  rw [Cert.RefSide.probRef_apply]
  show Cert.Spec.probRow (fun k : Fin 128 => V m c main_arg0 (ix2 n k))
      (fun k j : Fin 128 => V m c main_v0 (ix2 k j)) (fun j : Fin 128 => V m c main_v6 (ix2 0 j))
      (fun k j : Fin 128 => V m c main_v1 (ix2 k j)) (fun j : Fin 128 => V m c main_v7 (ix2 0 j))
      (fun k j : Fin 128 => V m c main_v2 (ix2 k j)) (fun j : Fin 128 => V m c main_v8 (ix2 0 j))
      (fun k j : Fin 128 => V m c main_v3 (ix2 k j)) (fun j : Fin 128 => V m c main_v9 (ix2 0 j))
      (fun k : Fin 128 => V m c main_v5 (ix2 0 k)) (V m c main_v10 (ix2 0 0)) = _
  rw [show (fun k : Fin 128 => V m c main_arg0 (ix2 n k)) = fun k : Fin 128 => (m ((c.tc : Thread Cert.KernelIdeal.nD Cert.KernelIdeal.τ).loc Cert.KernelIdeal.main_arg0)) (ix2 n k) from
        funext fun k => congrFun (V_main_arg0 m c) _,
    show (fun k j : Fin 128 => V m c main_v0 (ix2 k j)) = fun k j : Fin 128 => (m ((c.tc : Thread Cert.KernelIdeal.nD Cert.KernelIdeal.τ).loc Cert.KernelIdeal.main_arg2)) (ix2 k j) from
        funext fun k => funext fun j => Cert.KernelIdeal.HostSide.V_main_v0_apply m c k j,
    show (fun j : Fin 128 => V m c main_v6 (ix2 0 j)) = fun j : Fin 128 => (m ((c.tc : Thread Cert.KernelIdeal.nD Cert.KernelIdeal.τ).loc Cert.KernelIdeal.main_arg3)) (ix1 j) from
        funext fun j => Cert.KernelIdeal.HostSide.V_main_v6_apply m c j,
    show (fun k j : Fin 128 => V m c main_v1 (ix2 k j)) = fun k j : Fin 128 => (m ((c.tc : Thread Cert.KernelIdeal.nD Cert.KernelIdeal.τ).loc Cert.KernelIdeal.main_arg4)) (ix2 k j) from
        funext fun k => funext fun j => Cert.KernelIdeal.HostSide.V_main_v1_apply m c k j,
    show (fun j : Fin 128 => V m c main_v7 (ix2 0 j)) = fun j : Fin 128 => (m ((c.tc : Thread Cert.KernelIdeal.nD Cert.KernelIdeal.τ).loc Cert.KernelIdeal.main_arg5)) (ix1 j) from
        funext fun j => Cert.KernelIdeal.HostSide.V_main_v7_apply m c j,
    show (fun k j : Fin 128 => V m c main_v2 (ix2 k j)) = fun k j : Fin 128 => (m ((c.tc : Thread Cert.KernelIdeal.nD Cert.KernelIdeal.τ).loc Cert.KernelIdeal.main_arg6)) (ix2 k j) from
        funext fun k => funext fun j => Cert.KernelIdeal.HostSide.V_main_v2_apply m c k j,
    show (fun j : Fin 128 => V m c main_v8 (ix2 0 j)) = fun j : Fin 128 => (m ((c.tc : Thread Cert.KernelIdeal.nD Cert.KernelIdeal.τ).loc Cert.KernelIdeal.main_arg7)) (ix1 j) from
        funext fun j => Cert.KernelIdeal.HostSide.V_main_v8_apply m c j,
    show (fun k j : Fin 128 => V m c main_v3 (ix2 k j)) = fun k j : Fin 128 => (m ((c.tc : Thread Cert.KernelIdeal.nD Cert.KernelIdeal.τ).loc Cert.KernelIdeal.main_arg8)) (ix2 k j) from
        funext fun k => funext fun j => Cert.KernelIdeal.HostSide.V_main_v3_apply m c k j,
    show (fun j : Fin 128 => V m c main_v9 (ix2 0 j)) = fun j : Fin 128 => (m ((c.tc : Thread Cert.KernelIdeal.nD Cert.KernelIdeal.τ).loc Cert.KernelIdeal.main_arg9)) (ix1 j) from
        funext fun j => Cert.KernelIdeal.HostSide.V_main_v9_apply m c j,
    show (fun k : Fin 128 => V m c main_v5 (ix2 0 k)) = fun k : Fin 128 => (m ((c.tc : Thread Cert.KernelIdeal.nD Cert.KernelIdeal.τ).loc Cert.KernelIdeal.main_arg10)) (ix2 k 0) from
        funext fun k => Cert.KernelIdeal.HostSide.V_main_v5_apply m c k,
    show V m c main_v10 (ix2 0 0) = (m ((c.tc : Thread Cert.KernelIdeal.nD Cert.KernelIdeal.τ).loc Cert.KernelIdeal.main_arg11)) (ix1 0) from Cert.KernelIdeal.HostSide.V_main_v10_apply m c]

end Cert.Bridge

end
-- ==== Proof.lean ====
/-
  The certificate: the kernel as printed and its idealization run to the end without a fault and leave their
  arguments unchanged, so does the idealized reference, the idealization rewrote nothing, and on the extended
  reals the idealized kernel and the idealized reference, run from memories that agree on the arguments, end
  with equal results.

  First result: a node's probability — four dense layers with the leaky rectifier, a last affine map, the
  logistic function — broadcast down 256 rows.  The kernel computes it block by block of 5120 nodes, the last
  block overhanging the node array; a column that is written back is computed from a node row inside the array,
  so the overhang reaches no result.  Second result: the same host operations of the same arguments in both
  programs.
-/
import proofs.«176911_j83107617178205_2_alg».proof.Defs
import proofs.«176911_j83107617178205_2_alg».proof.Proof.Gen.Kernel
import proofs.«176911_j83107617178205_2_alg».proof.Proof.Gen.KernelIdeal
import proofs.«176911_j83107617178205_2_alg».proof.Proof.Gen.ReferenceIdeal
import proofs.«176911_j83107617178205_2_alg».proof.Proof.Gen.Pre_finite_inputs
import proofs.«176911_j83107617178205_2_alg».proof.Proof.FrameBits
import proofs.«176911_j83107617178205_2_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Forget.frame m ρ

/-- So does its idealization. -/
theorem frame_kernelIdeal : Cert.frame_KernelIdeal := fun m ρ _ =>
  Cert.KernelIdeal.Gen.frame_of m ρ (Cert.KernelIdeal.Exact.dats m) (Cert.KernelIdeal.Exact.A_eq m)
    (Cert.KernelIdeal.Exact.run_main m ρ (Cert.KernelIdeal.OutValue.rowLocal_of Cert.KernelIdeal.OutValue.blockApply))

/-- So does the idealized reference: its run with the results dropped. -/
theorem frame_reference : Cert.frame_ReferenceIdeal := fun m ρ _ =>
  (θ_run Cert.ReferenceIdeal.defs _ _).mono (fun _ h c => (h c).2.2) (Cert.RefSide.run m ρ)

/-- The idealization rewrote no operation. -/
theorem preserves : Cert.preserves_Kernel_KernelIdeal := trivial

/-- From memories agreeing on the arguments both idealized programs end with the reference's two results of those
    arguments. -/
theorem algebraic : Cert.algebraic_KernelIdeal_ReferenceIdeal := by
  intro m ρ m' ρ' _ hagree
  refine ⟨fun c => Cert.RefSide.probRef (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.RefSide.timeRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.Bridge.prob_eq m c), (h c).2.1.trans (Cert.Bridge.time_eq m c), (h c).2.2⟩)
      (Cert.KernelIdeal.OutValue.run m ρ)
  · refine (θ_run Cert.ReferenceIdeal.defs _ _).mono (fun r h c => ⟨(h c).1.trans ?_, (h c).2.1.trans ?_, (h c).2.2⟩)
      (Cert.RefSide.run m' ρ')
    · obtain ⟨a0, a1, a2, a3, a4, a5, a6, a7, a8, a9, a10, a11, a12, a13, a14, a15, a16, a17⟩ := hagree c
      rw [a0, a2, a3, a4, a5, a6, a7, a8, a9, a10, a11]
    · obtain ⟨a0, a1, a2, a3, a4, a5, a6, a7, a8, a9, a10, a11, a12, a13, a14, a15, a16, a17⟩ := hagree c
      rw [a0, a1, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
